-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x81920x20 : Shape := ⟨3, ![8, 81920, 20]⟩
abbrev S81920x3 : Shape := ⟨2, ![81920, 3]⟩
abbrev S60x128 : Shape := ⟨2, ![60, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S8x81920x20 : S_.BroadcastsInDim S8x81920x20 (![] : Fin 0 → Fin S8x81920x20.rank)
  reducesTo_S8x81920x20_S_d0_1_2 : S8x81920x20.ReducesTo [0, 1, 2] S_
  h_S_ : 0 < S_.numel
  bcast_S_S60x128 : S_.BroadcastsInDim S60x128 (![] : Fin 0 → Fin S60x128.rank)
  reducesTo_S60x128_S_d0_1 : S60x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S8x81920x20 .f32) (main_arg1 : IVec S81920x3 32) (main_arg2 : FVec F S60x128 .f32) (main_arg3 : FVec F S128 .f32) (main_arg4 : FVec F S128x16 .f32) (main_arg5 : FVec F S16 .f32) : IVec S_ 1 :=
  let main_v0 : FVec F S8x81920x20 .f32 := Host.absf main_arg0
  let main_cst : FVec F S_ .f32 := constant S_ .f32 0x7F800000#32
  let main_v1 : FVec F S8x81920x20 .f32 := broadcastInDim S8x81920x20 ![] bcast_S_S8x81920x20 main_cst
  let main_v2 : IVec S8x81920x20 1 := cmpf .olt main_v0 main_v1
  let main_c : IVec S_ 1 := constantI S_ 1 1#1
  let main_v3 : IVec S_ 1 := (fun x v => Host.reduce IntOp.andi x v reducesTo_S8x81920x20_S_d0_1_2 h_S_) main_v2 main_c
  let main_v4 : FVec F S60x128 .f32 := Host.absf main_arg2
  let main_cst_0 : FVec F S_ .f32 := constant S_ .f32 0x7F800000#32
  let main_v5 : FVec F S60x128 .f32 := broadcastInDim S60x128 ![] bcast_S_S60x128 main_cst_0
  let main_v6 : IVec S60x128 1 := cmpf .olt main_v4 main_v5
  let main_c_1 : IVec S_ 1 := constantI S_ 1 1#1
  let main_v7 : IVec S_ 1 := (fun x v => Host.reduce IntOp.andi x v reducesTo_S60x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S8x81920x20 : Shape := ⟨3, ![8, 81920, 20]⟩
abbrev S81920x3 : Shape := ⟨2, ![81920, 3]⟩
abbrev S60x128 : Shape := ⟨2, ![60, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S1x16 : Shape := ⟨2, ![1, 16]⟩
abbrev S_ : Shape := ⟨0, ![]⟩
abbrev S81920x3x1 : Shape := ⟨3, ![81920, 3, 1]⟩
abbrev S8x81920x3x20 : Shape := ⟨4, ![8, 81920, 3, 20]⟩
abbrev S8x81920x60 : Shape := ⟨3, ![8, 81920, 60]⟩
abbrev S1x8192x60 : Shape := ⟨3, ![1, 8192, 60]⟩
abbrev S1x8192x20 : Shape := ⟨3, ![1, 8192, 20]⟩
abbrev S8192x60 : Shape := ⟨2, ![8192, 60]⟩
abbrev S8192x128 : Shape := ⟨2, ![8192, 128]⟩
abbrev S8192x16 : Shape := ⟨2, ![8192, 16]⟩
abbrev S8192x20 : Shape := ⟨2, ![8192, 20]⟩
abbrev S8192x4 : Shape := ⟨2, ![8192, 4]⟩
abbrev S1x8192x16 : Shape := ⟨3, ![1, 8192, 16]⟩
abbrev S1x8192x4 : Shape := ⟨3, ![1, 8192, 4]⟩

abbrev nBuf : Space → Nat
  | .hbm => 57
  | .vmem => 48
  | .smem => 0
  | _ => 0

abbrev bufTy : (tb : Table) → Fin (tcTables nBuf tb) → BufTy
  | .hbm, ⟨0, _⟩ => ⟨S8x81920x20, .f32⟩
  | .hbm, ⟨1, _⟩ => ⟨S81920x3, .i32⟩
  | .hbm, ⟨2, _⟩ => ⟨S60x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1x128, .f32⟩
  | .hbm, ⟨7, _⟩ => ⟨S1x16, .f32⟩
  | .hbm, ⟨8, _⟩ => ⟨S8x81920x20, .bf16⟩
  | .hbm, ⟨9, _⟩ => ⟨S_, .i32⟩
  | .hbm, ⟨10, _⟩ => ⟨S81920x3, .i32⟩
  | .hbm, ⟨11, _⟩ => ⟨S81920x3, .i1⟩
  | .hbm, ⟨12, _⟩ => ⟨S_, .i32⟩
  | .hbm, ⟨13, _⟩ => ⟨S81920x3, .i32⟩
  | .hbm, ⟨14, _⟩ => ⟨S81920x3, .i32⟩
  | .hbm, ⟨15, _⟩ => ⟨S81920x3, .i32⟩
  | .hbm, ⟨16, _⟩ => ⟨S81920x3x1, .i32⟩
  | .hbm, ⟨17, _⟩ => ⟨S8x81920x3x20, .bf16⟩
  | .hbm, ⟨18, _⟩ => ⟨S8x81920x60, .bf16⟩
  | .hbm, ⟨19, _⟩ => ⟨S8x81920x20, .f32⟩
  | .hbm, ⟨20, _⟩ => ⟨S8x81920x20, .bf16⟩
  | .hbm, ⟨21, _⟩ => ⟨S_, .i32⟩
  | .hbm, ⟨22, _⟩ => ⟨S81920x3, .i32⟩
  | .hbm, ⟨23, _⟩ => ⟨S81920x3, .i1⟩
  | .hbm, ⟨24, _⟩ => ⟨S_, .i32⟩
  | .hbm, ⟨25, _⟩ => ⟨S81920x3, .i32⟩
  | .hbm, ⟨26, _⟩ => ⟨S81920x3, .i32⟩
  | .hbm, ⟨27, _⟩ => ⟨S81920x3, .i32⟩
  | .hbm, ⟨28, _⟩ => ⟨S81920x3x1, .i32⟩
  | .hbm, ⟨29, _⟩ => ⟨S8x81920x3x20, .bf16⟩
  | .hbm, ⟨30, _⟩ => ⟨S8x81920x60, .bf16⟩
  | .hbm, ⟨31, _⟩ => ⟨S8x81920x20, .f32⟩
  | .hbm, ⟨32, _⟩ => ⟨S8x81920x20, .bf16⟩
  | .hbm, ⟨33, _⟩ => ⟨S_, .i32⟩
  | .hbm, ⟨34, _⟩ => ⟨S81920x3, .i32⟩
  | .hbm, ⟨35, _⟩ => ⟨S81920x3, .i1⟩
  | .hbm, ⟨36, _⟩ => ⟨S_, .i32⟩
  | .hbm, ⟨37, _⟩ => ⟨S81920x3, .i32⟩
  | .hbm, ⟨38, _⟩ => ⟨S81920x3, .i32⟩
  | .hbm, ⟨39, _⟩ => ⟨S81920x3, .i32⟩
  | .hbm, ⟨40, _⟩ => ⟨S81920x3x1, .i32⟩
  | .hbm, ⟨41, _⟩ => ⟨S8x81920x3x20, .bf16⟩
  | .hbm, ⟨42, _⟩ => ⟨S8x81920x60, .bf16⟩
  | .hbm, ⟨43, _⟩ => ⟨S8x81920x20, .f32⟩
  | .hbm, ⟨44, _⟩ => ⟨S8x81920x20, .bf16⟩
  | .hbm, ⟨45, _⟩ => ⟨S_, .i32⟩
  | .hbm, ⟨46, _⟩ => ⟨S81920x3, .i32⟩
  | .hbm, ⟨47, _⟩ => ⟨S81920x3, .i1⟩
  | .hbm, ⟨48, _⟩ => ⟨S_, .i32⟩
  | .hbm, ⟨49, _⟩ => ⟨S81920x3, .i32⟩
  | .hbm, ⟨50, _⟩ => ⟨S81920x3, .i32⟩
  | .hbm, ⟨51, _⟩ => ⟨S81920x3, .i32⟩
  | .hbm, ⟨52, _⟩ => ⟨S81920x3x1, .i32⟩
  | .hbm, ⟨53, _⟩ => ⟨S8x81920x3x20, .bf16⟩
  | .hbm, ⟨54, _⟩ => ⟨S8x81920x60, .bf16⟩
  | .hbm, ⟨55, _⟩ => ⟨S8x81920x20, .f32⟩
  | .hbm, ⟨56, _⟩ => ⟨S8x81920x20, .bf16⟩
  | .local _ .vmem, ⟨0, _⟩ => ⟨S1x8192x60, .bf16⟩
  | .local _ .vmem, ⟨1, _⟩ => ⟨S1x8192x60, .bf16⟩
  | .local _ .vmem, ⟨2, _⟩ => ⟨S1x8192x20, .f32⟩
  | .local _ .vmem, ⟨3, _⟩ => ⟨S1x8192x20, .f32⟩
  | .local _ .vmem, ⟨4, _⟩ => ⟨S60x128, .f32⟩
  | .local _ .vmem, ⟨5, _⟩ => ⟨S1x128, .f32⟩
  | .local _ .vmem, ⟨6, _⟩ => ⟨S128x16, .f32⟩
  | .local _ .vmem, ⟨7, _⟩ => ⟨S1x16, .f32⟩
  | .local _ .vmem, ⟨8, _⟩ => ⟨S1x8192x20, .f32⟩
  | .local _ .vmem, ⟨9, _⟩ => ⟨S1x8192x20, .f32⟩
  | .local _ .vmem, ⟨10, _⟩ => ⟨S1x8192x20, .bf16⟩
  | .local _ .vmem, ⟨11, _⟩ => ⟨S1x8192x20, .bf16⟩
  | .local _ .vmem, ⟨12, _⟩ => ⟨S1x8192x60, .bf16⟩
  | .local _ .vmem, ⟨13, _⟩ => ⟨S1x8192x60, .bf16⟩
  | .local _ .vmem, ⟨14, _⟩ => ⟨S1x8192x20, .f32⟩
  | .local _ .vmem, ⟨15, _⟩ => ⟨S1x8192x20, .f32⟩
  | .local _ .vmem, ⟨16, _⟩ => ⟨S60x128, .f32⟩
  | .local _ .vmem, ⟨17, _⟩ => ⟨S1x128, .f32⟩
  | .local _ .vmem, ⟨18, _⟩ => ⟨S128x16, .f32⟩
  | .local _ .vmem, ⟨19, _⟩ => ⟨S1x16, .f32⟩
  | .local _ .vmem, ⟨20, _⟩ => ⟨S1x8192x20, .f32⟩
  | .local _ .vmem, ⟨21, _⟩ => ⟨S1x8192x20, .f32⟩
  | .local _ .vmem, ⟨22, _⟩ => ⟨S1x8192x20, .bf16⟩
  | .local _ .vmem, ⟨23, _⟩ => ⟨S1x8192x20, .bf16⟩
  | .local _ .vmem, ⟨24, _⟩ => ⟨S1x8192x60, .bf16⟩
  | .local _ .vmem, ⟨25, _⟩ => ⟨S1x8192x60, .bf16⟩
  | .local _ .vmem, ⟨26, _⟩ => ⟨S1x8192x20, .f32⟩
  | .local _ .vmem, ⟨27, _⟩ => ⟨S1x8192x20, .f32⟩
  | .local _ .vmem, ⟨28, _⟩ => ⟨S60x128, .f32⟩
  | .local _ .vmem, ⟨29, _⟩ => ⟨S1x128, .f32⟩
  | .local _ .vmem, ⟨30, _⟩ => ⟨S128x16, .f32⟩
  | .local _ .vmem, ⟨31, _⟩ => ⟨S1x16, .f32⟩
  | .local _ .vmem, ⟨32, _⟩ => ⟨S1x8192x20, .f32⟩
  | .local _ .vmem, ⟨33, _⟩ => ⟨S1x8192x20, .f32⟩
  | .local _ .vmem, ⟨34, _⟩ => ⟨S1x8192x20, .bf16⟩
  | .local _ .vmem, ⟨35, _⟩ => ⟨S1x8192x20, .bf16⟩
  | .local _ .vmem, ⟨36, _⟩ => ⟨S1x8192x60, .bf16⟩
  | .local _ .vmem, ⟨37, _⟩ => ⟨S1x8192x60, .bf16⟩
  | .local _ .vmem, ⟨38, _⟩ => ⟨S1x8192x20, .f32⟩
  | .local _ .vmem, ⟨39, _⟩ => ⟨S1x8192x20, .f32⟩
  | .local _ .vmem, ⟨40, _⟩ => ⟨S60x128, .f32⟩
  | .local _ .vmem, ⟨41, _⟩ => ⟨S1x128, .f32⟩
  | .local _ .vmem, ⟨42, _⟩ => ⟨S128x16, .f32⟩
  | .local _ .vmem, ⟨43, _⟩ => ⟨S1x16, .f32⟩
  | .local _ .vmem, ⟨44, _⟩ => ⟨S1x8192x20, .f32⟩
  | .local _ .vmem, ⟨45, _⟩ => ⟨S1x8192x20, .f32⟩
  | .local _ .vmem, ⟨46, _⟩ => ⟨S1x8192x20, .bf16⟩
  | .local _ .vmem, ⟨47, _⟩ => ⟨S1x8192x20, .bf16⟩
  | _, _ => ⟨S8x81920x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg6_1 : Ref sig .tc := ⟨.vmem, 45, rfl⟩
abbrev cc3_stg7_0 : Ref sig .tc := ⟨.vmem, 46, rfl⟩
abbrev cc3_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem6_1 : DmaSem sig := 45
abbrev cc3_sem7_0 : DmaSem sig := 46
abbrev cc3_sem7_1 : DmaSem sig := 47

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x60 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S60x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8192x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x20 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8192x60 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S60x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x8192x20 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x8192x20 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![8, 10], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8192x60 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8192x20 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S60x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x8192x20 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x8192x20 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![8, 10], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x8192x60 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8192x20 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S60x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x8192x20 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x8192x20 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

class Facts₀ : Prop where
  shapeCasts_S128_S1x128 : S128.ShapeCasts S1x128
  shapeCasts_S16_S1x16 : S16.ShapeCasts S1x16
  bitsLt_bf16_f32 : FTy.bits .bf16 < FTy.bits .f32
  bcast_S_S81920x3 : S_.BroadcastsInDim S81920x3 (![] : Fin 0 → Fin S81920x3.rank)
  bcast_S81920x3_S81920x3x1_0_1 : S81920x3.BroadcastsInDim S81920x3x1 (![0, 1] : Fin 2 → Fin S81920x3x1.rank)
  shapeCasts_S8x81920x3x20_S8x81920x60 : S8x81920x3x20.ShapeCasts S8x81920x60
  inb_S1x8192x60_S1x8192x60_0_0_0 : ∀ a, (![0, 0, 0] : Fin 3 → Nat) a + S1x8192x60.size a ≤ S1x8192x60.size a
  h_S1x8192x60 : 0 < S1x8192x60.numel
  shapeCasts_S1x8192x60_S8192x60 : S1x8192x60.ShapeCasts S8192x60
  inb_S60x128_S60x128_0_0 : ∀ a, (![0, 0] : Fin 2 → Nat) a + S60x128.size a ≤ S60x128.size a
  h_S60x128 : 0 < S60x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S1x8192x20_S1x8192x20_0_0_0 : ∀ a, (![0, 0, 0] : Fin 3 → Nat) a + S1x8192x20.size a ≤ S1x8192x20.size a
  h_S1x8192x20 : 0 < S1x8192x20.numel
  shapeCasts_S1x8192x20_S8192x20 : S1x8192x20.ShapeCasts S8192x20
  slices_S8192x20_o0_0_S8192x16 : S8192x20.Slices ![0, 0] S8192x16
  slices_S8192x20_o0_16_S8192x4 : S8192x20.Slices ![0, 16] S8192x4
  inb_S1x8192x20_S1x8192x16_0_0_0 : ∀ a, (![0, 0, 0] : Fin 3 → Nat) a + S1x8192x16.size a ≤ S1x8192x20.size a
  h_S1x8192x16 : 0 < S1x8192x16.numel
  shapeCasts_S1x8192x16_S8192x16 : S1x8192x16.ShapeCasts S8192x16
  shapeCasts_S8192x16_S1x8192x16 : S8192x16.ShapeCasts S1x8192x16
  inb_S1x8192x20_S1x8192x4_0_0_16 : ∀ a, (![0, 0, 16] : Fin 3 → Nat) a + S1x8192x4.size a ≤ S1x8192x20.size a
  h_S1x8192x4 : 0 < S1x8192x4.numel
  shapeCasts_S1x8192x4_S8192x4 : S1x8192x4.ShapeCasts S8192x4
  shapeCasts_S8192x4_S1x8192x4 : S8192x4.ShapeCasts S1x8192x4
  packedbf16_S1x8192x20_S1x8192x16_0_0_0 : (Rect.unit (s := S1x8192x20) ![0, 0, 0] S1x8192x16.size inb_S1x8192x20_S1x8192x16_0_0_0).PackedRows (EltTy.packing .bf16)
  packedbf16_S1x8192x20_S1x8192x4_0_0_16 : (Rect.unit (s := S1x8192x20) ![0, 0, 16] S1x8192x4.size inb_S1x8192x20_S1x8192x4_0_0_16).PackedRows (EltTy.packing .bf16)
  gather_S8x81920x20_S81920x3x1_S8x81920x3x20_03_1_n_n_1_2_8120_wf : GatherDims.WF S8x81920x20 S81920x3x1 S8x81920x3x20 [0, 3] [1] [] [1] [] 2 ![8, 1, 20]
  dot_S8192x60_S60x128_S8192x128_1_0_0_1_n_n_wf : DotDims.WF S8192x60 S60x128 S8192x128 [1] [0] [0] [1] [] []
  dot_S8192x128_S128x16_S8192x16_1_0_0_1_n_n_wf : DotDims.WF S8192x128 S128x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x60.size a ≤ S8x81920x60.size a
  hwx0_0 : ∀ i : grid0.Coords, EltTy.bits .bf16 = 32 ∨ (Rect.block (s := S8x81920x60) S1x8192x60.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x20.size a ≤ S8x81920x20.size a
  hwx0_1 : ∀ i : grid0.Coords, EltTy.bits .f32 = 32 ∨ (Rect.block (s := S8x81920x20) S1x8192x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S60x128.size a ≤ S60x128.size a
  hwx0_2 : ∀ i : grid0.Coords, EltTy.bits .f32 = 32 ∨ (Rect.block (s := S60x128) S60x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .f32 = 32 ∨ (Rect.block (s := S128x16) S128x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8192x20.size a ≤ S8x81920x20.size a
  hwx0_6 : ∀ i : grid0.Coords, EltTy.bits .f32 = 32 ∨ (Rect.block (s := S8x81920x20) S1x8192x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8192x20.size a ≤ S8x81920x20.size a
  hwx0_7 : ∀ i : grid0.Coords, EltTy.bits .bf16 = 32 ∨ (Rect.block (s := S8x81920x20) S1x8192x20.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x60.size a ≤ S8x81920x60.size a
  hwx1_0 : ∀ i : grid1.Coords, EltTy.bits .bf16 = 32 ∨ (Rect.block (s := S8x81920x60) S1x8192x60.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x20.size a ≤ S8x81920x20.size a
  hwx1_1 : ∀ i : grid1.Coords, EltTy.bits .f32 = 32 ∨ (Rect.block (s := S8x81920x20) S1x8192x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S60x128.size a ≤ S60x128.size a
  hwx1_2 : ∀ i : grid1.Coords, EltTy.bits .f32 = 32 ∨ (Rect.block (s := S60x128) S60x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .f32 = 32 ∨ (Rect.block (s := S128x16) S128x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8192x20.size a ≤ S8x81920x20.size a
  hwx1_6 : ∀ i : grid1.Coords, EltTy.bits .f32 = 32 ∨ (Rect.block (s := S8x81920x20) S1x8192x20.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x8192x20.size a ≤ S8x81920x20.size a
  hwx1_7 : ∀ i : grid1.Coords, EltTy.bits .bf16 = 32 ∨ (Rect.block (s := S8x81920x20) S1x8192x20.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8192x60.size a ≤ S8x81920x60.size a
  hwx2_0 : ∀ i : grid2.Coords, EltTy.bits .bf16 = 32 ∨ (Rect.block (s := S8x81920x60) S1x8192x60.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x8192x20.size a ≤ S8x81920x20.size a
  hwx2_1 : ∀ i : grid2.Coords, EltTy.bits .f32 = 32 ∨ (Rect.block (s := S8x81920x20) S1x8192x20.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S60x128.size a ≤ S60x128.size a
  hwx2_2 : ∀ i : grid2.Coords, EltTy.bits .f32 = 32 ∨ (Rect.block (s := S60x128) S60x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x16.size a ≤ S128x16.size a
  hwx2_4 : ∀ i : grid2.Coords, EltTy.bits .f32 = 32 ∨ (Rect.block (s := S128x16) S128x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x8192x20.size a ≤ S8x81920x20.size a
  hwx2_6 : ∀ i : grid2.Coords, EltTy.bits .f32 = 32 ∨ (Rect.block (s := S8x81920x20) S1x8192x20.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8192x20.size a ≤ S8x81920x20.size a
  hwx2_7 : ∀ i : grid2.Coords, EltTy.bits .bf16 = 32 ∨ (Rect.block (s := S8x81920x20) S1x8192x20.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8192x60.size a ≤ S8x81920x60.size a
  hwx3_0 : ∀ i : grid3.Coords, EltTy.bits .bf16 = 32 ∨ (Rect.block (s := S8x81920x60) S1x8192x60.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x8192x20.size a ≤ S8x81920x20.size a
  hwx3_1 : ∀ i : grid3.Coords, EltTy.bits .f32 = 32 ∨ (Rect.block (s := S8x81920x20) S1x8192x20.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S60x128.size a ≤ S60x128.size a
  hwx3_2 : ∀ i : grid3.Coords, EltTy.bits .f32 = 32 ∨ (Rect.block (s := S60x128) S60x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x16.size a ≤ S128x16.size a
  hwx3_4 : ∀ i : grid3.Coords, EltTy.bits .f32 = 32 ∨ (Rect.block (s := S128x16) S128x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x16.size a ≤ S1x16.size a
  hwx3_5 : ∀ i : grid3.Coords, EltTy.bits .f32 = 32 ∨ (Rect.block (s := S1x16) S1x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x8192x20.size a ≤ S8x81920x20.size a
  hwx3_6 : ∀ i : grid3.Coords, EltTy.bits .f32 = 32 ∨ (Rect.block (s := S8x81920x20) S1x8192x20.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x8192x20.size a ≤ S8x81920x20.size a
  hwx3_7 : ∀ i : grid3.Coords, EltTy.bits .bf16 = 32 ∨ (Rect.block (s := S8x81920x20) S1x8192x20.size (cc3_transform_7 i) (hinb3_7 i)).WholeWords (EltTy.packing .bf16)

variable [Facts₀]

def gather_S8x81920x20_S81920x3x1_S8x81920x3x20_03_1_n_n_1_2_8120 : GatherDims S8x81920x20 S81920x3x1 S8x81920x3x20 where
  offsetDims := [0, 3]
  collapsedSliceDims := [1]
  operandBatchingDims := []
  startIndicesBatchingDims := []
  startIndexMap := [1]
  indexVectorDim := 2
  sliceSizes := ![8, 1, 20]
  wf := gather_S8x81920x20_S81920x3x1_S8x81920x3x20_03_1_n_n_1_2_8120_wf
def dot_S8192x60_S60x128_S8192x128_1_0_0_1_n_n : DotDims S8192x60 S60x128 S8192x128 where
  lhsContracting := [1]
  rhsContracting := [0]
  lhsNonContracting := [0]
  rhsNonContracting := [1]
  lhsBatch := []
  rhsBatch := []
  wf := dot_S8192x60_S60x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf

abbrev win0_0 : Pipeline.Window sig grid0 :=
  Pipeline.Window.ofSpec (Memref.whole main_v10) S1x8192x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8192x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S60x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S1x8192x20.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S1x8192x20.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19) S1x8192x60.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_0) S1x8192x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S60x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20_0) S1x8192x20.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_1) S1x8192x20.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28) S1x8192x60.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20_0) S1x8192x20.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S60x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S128x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29_0) S1x8192x20.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v29_1) S1x8192x20.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v37) S1x8192x60.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29_0) S1x8192x20.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S60x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg4) S128x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v1) S1x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38_0) S1x8192x20.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v38_1) S1x8192x20.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where
  halias0_6 : Pipeline.Aliased win0 1 6
  halias1_6 : Pipeline.Aliased win1 1 6
  halias2_6 : Pipeline.Aliased win2 1 6
  halias3_6 : Pipeline.Aliased win3 1 6

variable [Facts]
-- ==== ReferenceIdeal.lean ====
abbrev S8x81920x20 : Shape := ⟨3, ![8, 81920, 20]⟩
abbrev S81920x3 : Shape := ⟨2, ![81920, 3]⟩
abbrev S60x128 : Shape := ⟨2, ![60, 128]⟩
abbrev S128 : Shape := ⟨1, ![128]⟩
abbrev S128x16 : Shape := ⟨2, ![128, 16]⟩
abbrev S16 : Shape := ⟨1, ![16]⟩
abbrev S_ : Shape := ⟨0, ![]⟩
abbrev S81920x3x1 : Shape := ⟨3, ![81920, 3, 1]⟩
abbrev S8x81920x3x20 : Shape := ⟨4, ![8, 81920, 3, 20]⟩
abbrev S8x81920x60 : Shape := ⟨3, ![8, 81920, 60]⟩
abbrev S8x81920x128 : Shape := ⟨3, ![8, 81920, 128]⟩
abbrev S1x1x128 : Shape := ⟨3, ![1, 1, 128]⟩
abbrev S8x81920x16 : Shape := ⟨3, ![8, 81920, 16]⟩
abbrev S1x1x16 : Shape := ⟨3, ![1, 1, 16]⟩
abbrev S1 : Shape := ⟨1, ![1]⟩

abbrev nBuf : Space → Nat
  | .hbm => 106
  | .vmem => 0
  | .smem => 0
  | _ => 0

abbrev bufTy : (tb : Table) → Fin (tcTables nBuf tb) → BufTy
  | .hbm, ⟨0, _⟩ => ⟨S8x81920x20, .f32⟩
  | .hbm, ⟨1, _⟩ => ⟨S81920x3, .i32⟩
  | .hbm, ⟨2, _⟩ => ⟨S60x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S_, .i32⟩
  | .hbm, ⟨7, _⟩ => ⟨S81920x3, .i32⟩
  | .hbm, ⟨8, _⟩ => ⟨S81920x3, .i1⟩
  | .hbm, ⟨9, _⟩ => ⟨S_, .i32⟩
  | .hbm, ⟨10, _⟩ => ⟨S81920x3, .i32⟩
  | .hbm, ⟨11, _⟩ => ⟨S81920x3, .i32⟩
  | .hbm, ⟨12, _⟩ => ⟨S81920x3, .i32⟩
  | .hbm, ⟨13, _⟩ => ⟨S81920x3x1, .i32⟩
  | .hbm, ⟨14, _⟩ => ⟨S8x81920x3x20, .f32⟩
  | .hbm, ⟨15, _⟩ => ⟨S8x81920x60, .f32⟩
  | .hbm, ⟨16, _⟩ => ⟨S8x81920x128, .f32⟩
  | .hbm, ⟨17, _⟩ => ⟨S1x1x128, .f32⟩
  | .hbm, ⟨18, _⟩ => ⟨S8x81920x128, .f32⟩
  | .hbm, ⟨19, _⟩ => ⟨S8x81920x128, .f32⟩
  | .hbm, ⟨20, _⟩ => ⟨S8x81920x128, .f32⟩
  | .hbm, ⟨21, _⟩ => ⟨S8x81920x16, .f32⟩
  | .hbm, ⟨22, _⟩ => ⟨S1x1x16, .f32⟩
  | .hbm, ⟨23, _⟩ => ⟨S8x81920x16, .f32⟩
  | .hbm, ⟨24, _⟩ => ⟨S8x81920x16, .f32⟩
  | .hbm, ⟨25, _⟩ => ⟨S_, .f32⟩
  | .hbm, ⟨26, _⟩ => ⟨S8x81920x16, .f32⟩
  | .hbm, ⟨27, _⟩ => ⟨S8x81920x16, .f32⟩
  | .hbm, ⟨28, _⟩ => ⟨S_, .i32⟩
  | .hbm, ⟨29, _⟩ => ⟨S1, .i32⟩
  | .hbm, ⟨30, _⟩ => ⟨S8x81920x20, .f32⟩
  | .hbm, ⟨31, _⟩ => ⟨S_, .i32⟩
  | .hbm, ⟨32, _⟩ => ⟨S81920x3, .i32⟩
  | .hbm, ⟨33, _⟩ => ⟨S81920x3, .i1⟩
  | .hbm, ⟨34, _⟩ => ⟨S_, .i32⟩
  | .hbm, ⟨35, _⟩ => ⟨S81920x3, .i32⟩
  | .hbm, ⟨36, _⟩ => ⟨S81920x3, .i32⟩
  | .hbm, ⟨37, _⟩ => ⟨S81920x3, .i32⟩
  | .hbm, ⟨38, _⟩ => ⟨S81920x3x1, .i32⟩
  | .hbm, ⟨39, _⟩ => ⟨S8x81920x3x20, .f32⟩
  | .hbm, ⟨40, _⟩ => ⟨S8x81920x60, .f32⟩
  | .hbm, ⟨41, _⟩ => ⟨S8x81920x128, .f32⟩
  | .hbm, ⟨42, _⟩ => ⟨S1x1x128, .f32⟩
  | .hbm, ⟨43, _⟩ => ⟨S8x81920x128, .f32⟩
  | .hbm, ⟨44, _⟩ => ⟨S8x81920x128, .f32⟩
  | .hbm, ⟨45, _⟩ => ⟨S8x81920x128, .f32⟩
  | .hbm, ⟨46, _⟩ => ⟨S8x81920x16, .f32⟩
  | .hbm, ⟨47, _⟩ => ⟨S1x1x16, .f32⟩
  | .hbm, ⟨48, _⟩ => ⟨S8x81920x16, .f32⟩
  | .hbm, ⟨49, _⟩ => ⟨S8x81920x16, .f32⟩
  | .hbm, ⟨50, _⟩ => ⟨S_, .f32⟩
  | .hbm, ⟨51, _⟩ => ⟨S8x81920x16, .f32⟩
  | .hbm, ⟨52, _⟩ => ⟨S8x81920x16, .f32⟩
  | .hbm, ⟨53, _⟩ => ⟨S_, .i32⟩
  | .hbm, ⟨54, _⟩ => ⟨S1, .i32⟩
  | .hbm, ⟨55, _⟩ => ⟨S8x81920x20, .f32⟩
  | .hbm, ⟨56, _⟩ => ⟨S_, .i32⟩
  | .hbm, ⟨57, _⟩ => ⟨S81920x3, .i32⟩
  | .hbm, ⟨58, _⟩ => ⟨S81920x3, .i1⟩
  | .hbm, ⟨59, _⟩ => ⟨S_, .i32⟩
  | .hbm, ⟨60, _⟩ => ⟨S81920x3, .i32⟩
  | .hbm, ⟨61, _⟩ => ⟨S81920x3, .i32⟩
  | .hbm, ⟨62, _⟩ => ⟨S81920x3, .i32⟩
  | .hbm, ⟨63, _⟩ => ⟨S81920x3x1, .i32⟩
  | .hbm, ⟨64, _⟩ => ⟨S8x81920x3x20, .f32⟩
  | .hbm, ⟨65, _⟩ => ⟨S8x81920x60, .f32⟩
  | .hbm, ⟨66, _⟩ => ⟨S8x81920x128, .f32⟩
  | .hbm, ⟨67, _⟩ => ⟨S1x1x128, .f32⟩
  | .hbm, ⟨68, _⟩ => ⟨S8x81920x128, .f32⟩
  | .hbm, ⟨69, _⟩ => ⟨S8x81920x128, .f32⟩
  | .hbm, ⟨70, _⟩ => ⟨S8x81920x128, .f32⟩
  | .hbm, ⟨71, _⟩ => ⟨S8x81920x16, .f32⟩
  | .hbm, ⟨72, _⟩ => ⟨S1x1x16, .f32⟩
  | .hbm, ⟨73, _⟩ => ⟨S8x81920x16, .f32⟩
  | .hbm, ⟨74, _⟩ => ⟨S8x81920x16, .f32⟩
  | .hbm, ⟨75, _⟩ => ⟨S_, .f32⟩
  | .hbm, ⟨76, _⟩ => ⟨S8x81920x16, .f32⟩
  | .hbm, ⟨77, _⟩ => ⟨S8x81920x16, .f32⟩
  | .hbm, ⟨78, _⟩ => ⟨S_, .i32⟩
  | .hbm, ⟨79, _⟩ => ⟨S1, .i32⟩
  | .hbm, ⟨80, _⟩ => ⟨S8x81920x20, .f32⟩
  | .hbm, ⟨81, _⟩ => ⟨S_, .i32⟩
  | .hbm, ⟨82, _⟩ => ⟨S81920x3, .i32⟩
  | .hbm, ⟨83, _⟩ => ⟨S81920x3, .i1⟩
  | .hbm, ⟨84, _⟩ => ⟨S_, .i32⟩
  | .hbm, ⟨85, _⟩ => ⟨S81920x3, .i32⟩
  | .hbm, ⟨86, _⟩ => ⟨S81920x3, .i32⟩
  | .hbm, ⟨87, _⟩ => ⟨S81920x3, .i32⟩
  | .hbm, ⟨88, _⟩ => ⟨S81920x3x1, .i32⟩
  | .hbm, ⟨89, _⟩ => ⟨S8x81920x3x20, .f32⟩
  | .hbm, ⟨90, _⟩ => ⟨S8x81920x60, .f32⟩
  | .hbm, ⟨91, _⟩ => ⟨S8x81920x128, .f32⟩
  | .hbm, ⟨92, _⟩ => ⟨S1x1x128, .f32⟩
  | .hbm, ⟨93, _⟩ => ⟨S8x81920x128, .f32⟩
  | .hbm, ⟨94, _⟩ => ⟨S8x81920x128, .f32⟩
  | .hbm, ⟨95, _⟩ => ⟨S8x81920x128, .f32⟩
  | .hbm, ⟨96, _⟩ => ⟨S8x81920x16, .f32⟩
  | .hbm, ⟨97, _⟩ => ⟨S1x1x16, .f32⟩
  | .hbm, ⟨98, _⟩ => ⟨S8x81920x16, .f32⟩
  | .hbm, ⟨99, _⟩ => ⟨S8x81920x16, .f32⟩
  | .hbm, ⟨100, _⟩ => ⟨S_, .f32⟩
  | .hbm, ⟨101, _⟩ => ⟨S8x81920x16, .f32⟩
  | .hbm, ⟨102, _⟩ => ⟨S8x81920x16, .f32⟩
  | .hbm, ⟨103, _⟩ => ⟨S_, .i32⟩
  | .hbm, ⟨104, _⟩ => ⟨S1, .i32⟩
  | .hbm, ⟨105, _⟩ => ⟨S8x81920x20, .f32⟩
  | _, _ => ⟨S8x81920x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_c_9 : Ref sig .tc := ⟨.hbm, 78, rfl⟩
abbrev main_v61 : Ref sig .tc := ⟨.hbm, 79, rfl⟩
abbrev main_v62 : Ref sig .tc := ⟨.hbm, 80, rfl⟩
abbrev main_c_10 : Ref sig .tc := ⟨.hbm, 81, rfl⟩
abbrev main_v63 : Ref sig .tc := ⟨.hbm, 82, rfl⟩
abbrev main_v64 : Ref sig .tc := ⟨.hbm, 83, rfl⟩
abbrev main_c_11 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_c_13 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]

class Facts₀ : Prop where
  bcast_S_S81920x3 : S_.BroadcastsInDim S81920x3 (![] : Fin 0 → Fin S81920x3.rank)
  bcast_S81920x3_S81920x3x1_0_1 : S81920x3.BroadcastsInDim S81920x3x1 (![0, 1] : Fin 2 → Fin S81920x3x1.rank)
  shapeCasts_S8x81920x3x20_S8x81920x60 : S8x81920x3x20.ShapeCasts S8x81920x60
  bcast_S128_S1x1x128_2 : S128.BroadcastsInDim S1x1x128 (![2] : Fin 1 → Fin S1x1x128.rank)
  bcast_S1x1x128_S8x81920x128_0_1_2 : S1x1x128.BroadcastsInDim S8x81920x128 (![0, 1, 2] : Fin 3 → Fin S8x81920x128.rank)
  bcast_S16_S1x1x16_2 : S16.BroadcastsInDim S1x1x16 (![2] : Fin 1 → Fin S1x1x16.rank)
  bcast_S1x1x16_S8x81920x16_0_1_2 : S1x1x16.BroadcastsInDim S8x81920x16 (![0, 1, 2] : Fin 3 → Fin S8x81920x16.rank)
  bcast_S_S8x81920x16 : S_.BroadcastsInDim S8x81920x16 (![] : Fin 0 → Fin S8x81920x16.rank)
  bcast_S_S1 : S_.BroadcastsInDim S1 (![] : Fin 0 → Fin S1.rank)
  gather_S8x81920x20_S81920x3x1_S8x81920x3x20_03_1_n_n_1_2_8120_wf : GatherDims.WF S8x81920x20 S81920x3x1 S8x81920x3x20 [0, 3] [1] [] [1] [] 2 ![8, 1, 20]
  dot_S8x81920x60_S60x128_S8x81920x128_2_0_01_1_n_n_wf : DotDims.WF S8x81920x60 S60x128 S8x81920x128 [2] [0] [0, 1] [1] [] []
  dot_S8x81920x128_S128x16_S8x81920x16_2_0_01_1_n_n_wf : DotDims.WF S8x81920x128 S128x16 S8x81920x16 [2] [0] [0, 1] [1] [] []
  scatter_S8x81920x20_S1_S8x81920x16_012_n_2_0_wf : ScatterDims.WF S8x81920x20 S1 S8x81920x16 [0, 1, 2] [] [2] 0

variable [Facts₀]

def gather_S8x81920x20_S81920x3x1_S8x81920x3x20_03_1_n_n_1_2_8120 : GatherDims S8x81920x20 S81920x3x1 S8x81920x3x20 where
  offsetDims := [0, 3]
  collapsedSliceDims := [1]
  operandBatchingDims := []
  startIndicesBatchingDims := []
  startIndexMap := [1]
  indexVectorDim := 2
  sliceSizes := ![8, 1, 20]
  wf := gather_S8x81920x20_S81920x3x1_S8x81920x3x20_03_1_n_n_1_2_8120_wf
def dot_S8x81920x60_S60x128_S8x81920x128_2_0_01_1_n_n : DotDims S8x81920x60 S60x128 S8x81920x128 where
  lhsContracting := [2]
  rhsContracting := [0]
  lhsNonContracting := [0, 1]
  rhsNonContracting := [1]
  lhsBatch := []
  rhsBatch := []
  wf := dot_S8x81920x60_S60x128_S8x81920x128_2_0_01_1_n_n_wf
def dot_S8x81920x128_S128x16_S8x81920x16_2_0_01_1_n_n : DotDims S8x81920x128 S128x16 S8x81920x16 where
  lhsContracting := [2]
  rhsContracting := [0]
  lhsNonContracting := [0, 1]
  rhsNonContracting := [1]
  lhsBatch := []
  rhsBatch := []
  wf := dot_S8x81920x128_S128x16_S8x81920x16_2_0_01_1_n_n_wf
def scatter_S8x81920x20_S1_S8x81920x16_012_n_2_0 : ScatterDims S8x81920x20 S1 S8x81920x16 where
  updateWindowDims := [0, 1, 2]
  insertedWindowDims := []
  scatterDimsToOperandDims := [2]
  indexVectorDim := 0
  wf := scatter_S8x81920x20_S1_S8x81920x16_012_n_2_0_wf

class Facts : Prop extends Facts₀ where

variable [Facts]
-- ==== Proof.KRun.lean ====
/-
  The idealized kernel program's run, with its result named.

  The program is four kernel regions among stretches of host operations. Every weakly fair execution terminates
  without a fault, and the buffers end at the last boundary's contents (the fold of the host stretches and of each
  region's write-backs from the launch memory, the generated `W8`). The frame claim reads the six argument buffers
  off that fold; here the result buffer is read off it as well, so the value of the program is available:
  the result ends holding `W8` at the last region's first output array.
-/
import proofs.«172859_j12378095747571_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the six arguments as launched. -/
theorem run : θ_run defs (onTc (τ := τ) (main (F := F))) ⟨m, fun _ => 0, ρ⟩ (fun r => ∀ c : Dev nD,
      r.2.mem ((c.tc : Thread nD τ).loc main_v38_0) = W8 m ρ c (Proc.devRef .tc main_v38_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v38_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.Spec.lean ====
/-
  One forward-Euler step of the neural solver, as a function of arrays, index by index over the extended reals.

  The state `y` is [nb, np, 20]: per batch and vertex, 16 latent components followed by 4 ancillary ones. The
  gathered neighbourhood features `z` are [nb, np, 60]: per batch and vertex, the 3 neighbours' 20 components
  laid end to end. The interaction network is `phi z = tanh(z · W1 + b1) · W2 + b2` (60 → 128 → 16). One step adds
  `dt · phi` to the latent components and leaves the ancillary ones alone:

      step y z (b, p, d) = y (b, p, d) + dt * phi (z (b, p, ·)) d     for d < 16
      step y z (b, p, d) = y (b, p, d)                                for 16 ≤ d < 20

  `dt` is the single-precision constant nearest to one tenth, the same word in both programs, never evaluated.
  The extents `nb` and `np` are parameters: the whole arrays are [8, 81920, ·], one block of the kernel's grid
  is [1, 8192, ·], and a step of a block is the block of the step (`stepAt_congr`: the value at a vertex depends
  only on that vertex's rows of `y` and `z`).
-/
import Idealize.ShloMosaic.PureOps.Ideal
import Idealize.ShloMosaic.Lib.ValueIdx

noncomputable section

namespace Cert.Euler

open Idealize.ShloMosaic Idealize.ShloMosaic.ValueIdx
open scoped BigOperators

/-- The first layer's weights. -/
abbrev SW1 : Shape := ⟨2, ![60, 128]⟩
/-- The second layer's weights. -/
abbrev SW2 : Shape := ⟨2, ![128, 16]⟩

/-- The step size: the single-precision word for one tenth, read as its exact binary value. -/
abbrev dt : EReal := Ideal.ofBits .f32 0x3DCCCCCD#32

/-- The interaction network on one vertex's gathered features `z`, output component `d`:
    `(∑ h, tanh ((∑ f, z f * W1 (f, h)) + b1 h) * W2 (h, d)) + b2 d`. -/
def phi (z : Fin 60 → EReal) (w1 : SW1.Idx → EReal) (b1 : Fin 128 → EReal) (w2 : SW2.Idx → EReal) (b2 : Fin 16 → EReal)
    (d : Fin 16) : EReal :=
  (∑ h : Fin 128, Ideal.tanh ((∑ f : Fin 60, z f * w1 (ix2 f h)) + b1 h) * w2 (ix2 h d)) + b2 d

variable {nb np : ℕ}

/-- One Euler step at batch `b`, vertex `p`, component `d`. -/
def stepAt (y : (⟨3, ![nb, np, 20]⟩ : Shape).Idx → EReal) (z : (⟨3, ![nb, np, 60]⟩ : Shape).Idx → EReal)
    (w1 : SW1.Idx → EReal) (b1 : Fin 128 → EReal) (w2 : SW2.Idx → EReal) (b2 : Fin 16 → EReal)
    (b : Fin nb) (p : Fin np) (d : Fin 20) : EReal :=
  if h : d.val < 16 then y (ix3 b p d) + dt * phi (fun f => z (ix3 b p f)) w1 b1 w2 b2 ⟨d.val, h⟩ else y (ix3 b p d)

/-- One Euler step as an array. -/
def step (y : (⟨3, ![nb, np, 20]⟩ : Shape).Idx → EReal) (z : (⟨3, ![nb, np, 60]⟩ : Shape).Idx → EReal)
    (w1 : SW1.Idx → EReal) (b1 : Fin 128 → EReal) (w2 : SW2.Idx → EReal) (b2 : Fin 16 → EReal) :
    (⟨3, ![nb, np, 20]⟩ : Shape).Idx → EReal :=
  fun j => stepAt y z w1 b1 w2 b2 (j 0) (j 1) (j 2)

theorem step_ix3 (y : (⟨3, ![nb, np, 20]⟩ : Shape).Idx → EReal) (z : (⟨3, ![nb, np, 60]⟩ : Shape).Idx → EReal)
    (w1 : SW1.Idx → EReal) (b1 : Fin 128 → EReal) (w2 : SW2.Idx → EReal) (b2 : Fin 16 → EReal)
    (b : Fin nb) (p : Fin np) (d : Fin 20) :
    step y z w1 b1 w2 b2 (ix3 b p d) = stepAt y z w1 b1 w2 b2 b p d := rfl

/-- A latent component after the step. -/
theorem stepAt_latent (y : (⟨3, ![nb, np, 20]⟩ : Shape).Idx → EReal) (z : (⟨3, ![nb, np, 60]⟩ : Shape).Idx → EReal)
    (w1 : SW1.Idx → EReal) (b1 : Fin 128 → EReal) (w2 : SW2.Idx → EReal) (b2 : Fin 16 → EReal)
    (b : Fin nb) (p : Fin np) (d : Fin 20) (h : d.val < 16) :
    stepAt y z w1 b1 w2 b2 b p d = y (ix3 b p d) + dt * phi (fun f => z (ix3 b p f)) w1 b1 w2 b2 ⟨d.val, h⟩ := by
  unfold stepAt; rw [dif_pos h]

/-- An ancillary component after the step. -/
theorem stepAt_ancillary (y : (⟨3, ![nb, np, 20]⟩ : Shape).Idx → EReal) (z : (⟨3, ![nb, np, 60]⟩ : Shape).Idx → EReal)
    (w1 : SW1.Idx → EReal) (b1 : Fin 128 → EReal) (w2 : SW2.Idx → EReal) (b2 : Fin 16 → EReal)
    (b : Fin nb) (p : Fin np) (d : Fin 20) (h : ¬ d.val < 16) :
    stepAt y z w1 b1 w2 b2 b p d = y (ix3 b p d) := by
  unfold stepAt; rw [dif_neg h]

/-- The step at a vertex depends only on that vertex's rows of the state and of the gathered features: two
    pairs of arrays (of any extents) that agree on those rows step to the same value there. -/
theorem stepAt_congr {nb' np' : ℕ}
    (y : (⟨3, ![nb, np, 20]⟩ : Shape).Idx → EReal) (z : (⟨3, ![nb, np, 60]⟩ : Shape).Idx → EReal)
    (y' : (⟨3, ![nb', np', 20]⟩ : Shape).Idx → EReal) (z' : (⟨3, ![nb', np', 60]⟩ : Shape).Idx → EReal)
    (w1 : SW1.Idx → EReal) (b1 : Fin 128 → EReal) (w2 : SW2.Idx → EReal) (b2 : Fin 16 → EReal)
    (b : Fin nb) (p : Fin np) (b' : Fin nb') (p' : Fin np')
    (hy : ∀ d : Fin 20, y (ix3 b p d) = y' (ix3 b' p' d)) (hz : ∀ f : Fin 60, z (ix3 b p f) = z' (ix3 b' p' f)) (d : Fin 20) :
    stepAt y z w1 b1 w2 b2 b p d = stepAt y' z' w1 b1 w2 b2 b' p' d := by
  unfold stepAt
  rw [hy d, funext hz]

end Cert.Euler

end
-- ==== Proof.Payload.lean ====
/-
  The kernel body's arithmetic, read at one element, over the extended reals.

  The body works on one block: 8192 vertices of one batch. From the gathered features `z` [1, 8192, 60], the
  state block `y` [1, 8192, 20], the weights and the two biases (each a one-row matrix) it computes, for vertex
  `r` and latent component `e`, `y (r, e) + dt * phi (z (r, ·)) e`: the two matrix products are sums of products
  (at the ideal instance a product into a zero accumulator is the plain sum), a change of float format is the
  identity, and a one-row matrix broadcast over the rows reads its one row. The ancillary components are sliced
  out of the state block unchanged. The second output stores the same values in a narrower format, which at the
  ideal instance is the same extended real.
-/
import proofs.«172859_j12378095747571_2_alg».proof.Proof.Gen.KernelIdeal.Skeleton
import proofs.«172859_j12378095747571_2_alg».proof.Proof.LibPlainDot
import proofs.«172859_j12378095747571_2_alg».proof.Proof.Spec
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx
open scoped BigOperators

variable (v0 : FVec Ideal S1x8192x60 .bf16) (v2 : FVec Ideal S60x128 .f32) (v5 : FVec Ideal S1x128 .f32)
  (v10 : FVec Ideal S128x16 .f32) (v14 : FVec Ideal S1x16 .f32) (v18 : FVec Ideal S1x8192x20 .f32)

/-- The hidden layer at vertex `r`, unit `h`: `tanh ((∑ f, z (r, f) * W1 (f, h)) + b1 h)`. -/
theorem hidden_at (r : Fin 8192) (h : Fin 128) :
    (tanh (addf (matmul dot_S8192x60_S60x128_S8192x128_1_0_0_1_n_n none
          (shapeCast S8192x60 v0 shapeCasts_S1x8192x60_S8192x60 : FVec Ideal S8192x60 .bf16)
          (truncf .bf16 v2 bitsLt_bf16_f32 : FVec Ideal S60x128 .bf16) (constant (F := Ideal) S8192x128 .f32 0x00000000#32))
        (broadcastTo S8192x128 (shapeCast S1x128 v5 shapeCasts_S1x128_S1x128 : FVec Ideal S1x128 .f32) broadcasts_S1x128_S8192x128)
        : FVec Ideal S8192x128 .f32) : FVec Ideal S8192x128 .f32)
      (ix2 r h)
    = Ideal.tanh ((∑ f : Fin 60, v0 (ix3 (0 : Fin 1) r f) * v2 (ix2 f h)) + v5 (ix2 (0 : Fin 1) h)) := by
  show Ideal.tanh (_ + _) = _
  rw [Cert.PlainDot.matmul_zero_apply dot_S8192x60_S60x128_S8192x128_1_0_0_1_n_n rfl, broadcastTo_1b_ab_apply, shapeCast_self]
  refine congrArg Ideal.tanh (congrArg (· + _) ?_)
  refine Finset.sum_congr rfl fun f _ => ?_
  rw [shapeCast_1ab_ab_apply, truncf_apply]

/-- The updated latent block at vertex `r`, component `e`. -/
theorem pay4_at (r : Fin 8192) (e : Fin 16) :
    k0_pay4 (F := Ideal) v0 v2 v5 v10 v14 v18 (ix2 r e)
      = v18 (ix3 (0 : Fin 1) r (⟨e.val, by omega⟩ : Fin 20))
        + Euler.dt * Euler.phi (fun f => v0 (ix3 (0 : Fin 1) r f)) v2 (fun h => v5 (ix2 (0 : Fin 1) h)) v10
            (fun e' => v14 (ix2 (0 : Fin 1) e')) e := by
  unfold k0_pay4 k0_pay3 Euler.phi
  dsimp only
  rw [addf_apply, mulf_apply, broadcast_apply, addf_apply]
  rw [slice2_axis1_apply 0 _ _ r e (⟨e.val, by omega⟩ : Fin 20) (by simp), shapeCast_1ab_ab_apply]
  rw [Cert.PlainDot.matmul_zero_apply dot_S8192x128_S128x16_S8192x16_1_0_0_1_n_n rfl, broadcastTo_1b_ab_apply,
    shapeCast_self v14]
  simp only [truncf_apply, hidden_at]
  rfl

/-- The ancillary block at vertex `r`, component `a`: the state's component `16 + a`. -/
theorem pay5_at (r : Fin 8192) (a : Fin 4) :
    k0_pay5 (F := Ideal) v18 (ix2 r a) = v18 (ix3 (0 : Fin 1) r (⟨16 + a.val, by omega⟩ : Fin 20)) := by
  unfold k0_pay5 k0_pay3
  rw [slice2_axis1_apply 16 _ _ r a (⟨16 + a.val, by omega⟩ : Fin 20) rfl, shapeCast_1ab_ab_apply]

/-- What the first store of the first output writes: the updated latent block, as a [1, 8192, 16] block. -/
theorem pay6_at (u : Fin 1) (r : Fin 8192) (e : Fin 16) :
    k0_pay6 (F := Ideal) v0 v2 v5 v10 v14 v18 (ix3 u r e) = k0_pay4 (F := Ideal) v0 v2 v5 v10 v14 v18 (ix2 r e) := by
  unfold k0_pay6
  rw [shapeCast_ab_1ab_apply]

/-- What the second store of the first output writes: the ancillary block, as a [1, 8192, 4] block. -/
theorem pay7_at (u : Fin 1) (r : Fin 8192) (a : Fin 4) :
    k0_pay7 (F := Ideal) v18 (ix3 u r a) = k0_pay5 (F := Ideal) v18 (ix2 r a) := by
  unfold k0_pay7
  rw [shapeCast_ab_1ab_apply]

/-- What the first store of the second output writes: the same updated latent block (the narrower format is the
    identity on the extended reals). -/
theorem pay1_at (u : Fin 1) (r : Fin 8192) (e : Fin 16) :
    k0_pay1 (F := Ideal) (k0_pay8 (F := Ideal) v0 v2 v5 v10 v14 v18) (ix3 u r e)
      = k0_pay4 (F := Ideal) v0 v2 v5 v10 v14 v18 (ix2 r e) := by
  unfold k0_pay1 k0_pay8
  rw [shapeCast_ab_1ab_apply, truncf_apply]

/-- What the second store of the second output writes: the same ancillary block. -/
theorem pay2_at (u : Fin 1) (r : Fin 8192) (a : Fin 4) :
    k0_pay2 (F := Ideal) (k0_pay5 (F := Ideal) v18) (ix3 u r a) = k0_pay5 (F := Ideal) v18 (ix2 r a) := by
  unfold k0_pay2
  rw [shapeCast_ab_1ab_apply, truncf_apply]

end Cert.KernelIdeal.Payload

end
-- ==== Proof.Region0.lean ====
/-
  Region 0: what the first kernel launch leaves in its two output arrays.

  The grid is 8 × 10: point (b, i) works on vertices 8192 i … 8192 i + 8191 of batch b. Its body stores the
  updated latent components and the untouched ancillary ones into the output block through two rectangles that
  tile it, so the block it leaves is ONE function of the input blocks: the Euler step of the state block and
  the gathered-features block (the specification's `step` at the block's extents). A step at a vertex depends
  only on that vertex's rows, so the block of the step is the step of the blocks; every point writes its block
  back and the 80 blocks tile the [8, 81920, 20] array, which therefore ends holding the step of the whole
  arrays the region found. The second output stores the same values in a narrower float format: at the ideal
  instance the same extended reals.
-/
import proofs.«172859_j12378095747571_2_alg».proof.Proof.Gen.KernelIdeal.Frame
import proofs.«172859_j12378095747571_2_alg».proof.Proof.Payload
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- The step of one block: the state block `x1`, the gathered-features block `x0`, the weights and the two
    one-row bias matrices. -/
abbrev blockStep (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) : S1x8192x20.Idx → EReal :=
  Euler.step (nb := 1) (np := 8192) x1 x0 x2 (fun h => x3 (ix2 (0 : Fin 1) h)) x4 (fun e => x5 (ix2 (0 : Fin 1) e))

/-- Where the ancillary store's rectangle puts its local index (u, r, a): at component 16 + a. -/
theorem emb_anc (inb) (u : Fin 1) (r : Fin 8192) (a : Fin 4) :
    (Rect.unit (s := S1x8192x20) ![0, 0, 16] ![1, 8192, 4] inb).emb (ix3 u r a)
      = ix3 (0 : Fin 1) r (⟨16 + a.val, by omega⟩ : Fin 20) :=
  funext fun ax => Fin.ext (by
    match ax with
    | ⟨0, _⟩ => show 0 + 1 * u.val = 0; omega
    | ⟨1, _⟩ => show 0 + 1 * r.val = r.val; omega
    | ⟨2, _⟩ => show 16 + 1 * a.val = 16 + a.val; omega)

/-- Where the latent store's rectangle puts its local index (u, r, e): at component e. -/
theorem emb_lat (inb) (u : Fin 1) (r : Fin 8192) (e : Fin 16) :
    (Rect.unit (s := S1x8192x20) ![0, 0, 0] ![1, 8192, 16] inb).emb (ix3 u r e)
      = ix3 (0 : Fin 1) r (⟨e.val, by omega⟩ : Fin 20) :=
  funext fun ax => Fin.ext (by
    match ax with
    | ⟨0, _⟩ => show 0 + 1 * u.val = 0; omega
    | ⟨1, _⟩ => show 0 + 1 * r.val = r.val; omega
    | ⟨2, _⟩ => show 0 + 1 * e.val = e.val; omega)

/-- The ancillary payload is the block step on its rectangle. -/
theorem anc_piece (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) (inb)
    (x : (⟨3, ![1, 8192, 4]⟩ : Shape).Idx) :
    k0_pay7 (F := Ideal) x1 x = blockStep x0 x1 x2 x3 x4 x5 ((Rect.unit (s := S1x8192x20) ![0, 0, 16] ![1, 8192, 4] inb).emb x) := by
  obtain ⟨u, r, a, rfl⟩ : ∃ (u : Fin 1) (r : Fin 8192) (a : Fin 4), x = ix3 u r a := ⟨x 0, x 1, x 2, eq_ix3 x⟩
  rw [emb_anc, Payload.pay7_at, Payload.pay5_at]
  show _ = Euler.stepAt _ _ _ _ _ _ (0 : Fin 1) r (⟨16 + a.val, by omega⟩ : Fin 20)
  rw [Euler.stepAt_ancillary _ _ _ _ _ _ _ _ _ (by show ¬ 16 + a.val < 16; omega)]

/-- The latent payload is the block step on its rectangle. -/
theorem lat_piece (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) (inb)
    (x : (⟨3, ![1, 8192, 16]⟩ : Shape).Idx) :
    k0_pay6 (F := Ideal) x0 x2 x3 x4 x5 x1 x = blockStep x0 x1 x2 x3 x4 x5 ((Rect.unit (s := S1x8192x20) ![0, 0, 0] ![1, 8192, 16] inb).emb x) := by
  obtain ⟨u, r, e, rfl⟩ : ∃ (u : Fin 1) (r : Fin 8192) (e : Fin 16), x = ix3 u r e := ⟨x 0, x 1, x 2, eq_ix3 x⟩
  rw [emb_lat, Payload.pay6_at, Payload.pay4_at]
  show _ = Euler.stepAt _ _ _ _ _ _ (0 : Fin 1) r (⟨e.val, by omega⟩ : Fin 20)
  rw [Euler.stepAt_latent _ _ _ _ _ _ _ _ _ (by show e.val < 16; omega)]

/-- The second output's ancillary payload: the same values. -/
theorem anc_piece' (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) (inb)
    (x : (⟨3, ![1, 8192, 4]⟩ : Shape).Idx) :
    k0_pay2 (F := Ideal) (k0_pay5 (F := Ideal) x1) x
      = blockStep x0 x1 x2 x3 x4 x5 ((Rect.unit (s := S1x8192x20) ![0, 0, 16] ![1, 8192, 4] inb).emb x) := by
  obtain ⟨u, r, a, rfl⟩ : ∃ (u : Fin 1) (r : Fin 8192) (a : Fin 4), x = ix3 u r a := ⟨x 0, x 1, x 2, eq_ix3 x⟩
  rw [emb_anc, Payload.pay2_at, Payload.pay5_at]
  show _ = Euler.stepAt _ _ _ _ _ _ (0 : Fin 1) r (⟨16 + a.val, by omega⟩ : Fin 20)
  rw [Euler.stepAt_ancillary _ _ _ _ _ _ _ _ _ (by show ¬ 16 + a.val < 16; omega)]

/-- The second output's latent payload: the same values. -/
theorem lat_piece' (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) (inb)
    (x : (⟨3, ![1, 8192, 16]⟩ : Shape).Idx) :
    k0_pay1 (F := Ideal) (k0_pay8 (F := Ideal) x0 x2 x3 x4 x5 x1) x
      = blockStep x0 x1 x2 x3 x4 x5 ((Rect.unit (s := S1x8192x20) ![0, 0, 0] ![1, 8192, 16] inb).emb x) := by
  obtain ⟨u, r, e, rfl⟩ : ∃ (u : Fin 1) (r : Fin 8192) (e : Fin 16), x = ix3 u r e := ⟨x 0, x 1, x 2, eq_ix3 x⟩
  rw [emb_lat, Payload.pay1_at, Payload.pay4_at]
  show _ = Euler.stepAt _ _ _ _ _ _ (0 : Fin 1) r (⟨e.val, by omega⟩ : Fin 20)
  rw [Euler.stepAt_latent _ _ _ _ _ _ _ _ _ (by show e.val < 16; omega)]

/-- What the body leaves in the first output's block: the block step. -/
theorem out6_eq (c : Dev nD) (i : grid0.Coords) (arg2 : Memref sig .tc .vmem S1x8192x60 .bf16) (harg2 : arg2.IsWhole) (arg3 : Memref sig .tc .vmem S1x8192x20 .f32) (harg3 : arg3.IsWhole) (arg4 : Memref sig .tc .vmem S60x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S1x8192x20 .f32) (harg8 : arg8.IsWhole) (arg9 : Memref sig .tc .vmem S1x8192x20 .bf16) (harg9 : arg9.IsWhole)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) :
    out0_A_6 (F := Ideal) c i arg2 harg2 arg3 harg3 arg4 harg4 arg5 harg5 arg6 harg6 arg7 harg7 arg8 harg8 arg9 harg9 x0 x1 x2 x3 x4 x5 = blockStep x0 x1 x2 x3 x4 x5 := by
  unfold out0_A_6
  rw [View.read_writes_eq_canon _ _ _ (cover0_A_6 (F := Ideal) c i arg2 harg2 arg3 harg3 arg4 harg4 arg5 harg5 arg6 harg6 arg7 harg7 arg8 harg8 arg9 harg9 x0 x1 x2 x3 x4 x5)]
  funext y
  refine View.canon_apply_of_pieces (blockStep x0 x1 x2 x3 x4 x5) _ ?_ y (cover0_A_6 (F := Ideal) c i arg2 harg2 arg3 harg3 arg4 harg4 arg5 harg5 arg6 harg6 arg7 harg7 arg8 harg8 arg9 harg9 x0 x1 x2 x3 x4 x5 y)
  unfold kernelRun0_A
  dsimp only
  simp only [View.readAt_eq_ld, harg2.read_unread, harg3.read_unread, harg4.read_unread, harg5.read_unread, harg6.read_unread,
    harg7.read_unread, View.ld_unit_zero (S := S1x8192x60) hz3, View.ld_unit_zero (S := S1x8192x20) hz3,
    View.ld_unit_zero (S := S60x128) hz2, View.ld_unit_zero (S := S1x128) hz2, View.ld_unit_zero (S := S128x16) hz2,
    View.ld_unit_zero (S := S1x16) hz2]
  intro p hp
  simp only [List.mem_cons, List.mem_nil_iff, or_false] at hp
  rcases hp with rfl | rfl
  · exact fun x => anc_piece x0 x1 x2 x3 x4 x5 inb_S1x8192x20_S1x8192x4_0_0_16 x
  · exact fun x => lat_piece x0 x1 x2 x3 x4 x5 inb_S1x8192x20_S1x8192x16_0_0_0 x

/-- What the body leaves in the second output's block: the same block step. -/
theorem out7_eq (c : Dev nD) (i : grid0.Coords) (arg2 : Memref sig .tc .vmem S1x8192x60 .bf16) (harg2 : arg2.IsWhole) (arg3 : Memref sig .tc .vmem S1x8192x20 .f32) (harg3 : arg3.IsWhole) (arg4 : Memref sig .tc .vmem S60x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S1x8192x20 .f32) (harg8 : arg8.IsWhole) (arg9 : Memref sig .tc .vmem S1x8192x20 .bf16) (harg9 : arg9.IsWhole)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) :
    out0_A_7 (F := Ideal) c i arg2 harg2 arg3 harg3 arg4 harg4 arg5 harg5 arg6 harg6 arg7 harg7 arg8 harg8 arg9 harg9 x0 x1 x2 x3 x4 x5 = blockStep x0 x1 x2 x3 x4 x5 := by
  unfold out0_A_7
  rw [View.read_writes_eq_canon _ _ _ (cover0_A_7 (F := Ideal) c i arg2 harg2 arg3 harg3 arg4 harg4 arg5 harg5 arg6 harg6 arg7 harg7 arg8 harg8 arg9 harg9 x0 x1 x2 x3 x4 x5)]
  funext y
  refine View.canon_apply_of_pieces (blockStep x0 x1 x2 x3 x4 x5) _ ?_ y (cover0_A_7 (F := Ideal) c i arg2 harg2 arg3 harg3 arg4 harg4 arg5 harg5 arg6 harg6 arg7 harg7 arg8 harg8 arg9 harg9 x0 x1 x2 x3 x4 x5 y)
  unfold kernelRun0_A
  dsimp only
  sl_unfold_words
  simp only [View.readAt_eq_ld, harg2.read_unread, harg3.read_unread, harg4.read_unread, harg5.read_unread, harg6.read_unread,
    harg7.read_unread, View.ld_unit_zero (S := S1x8192x60) hz3, View.ld_unit_zero (S := S1x8192x20) hz3,
    View.ld_unit_zero (S := S60x128) hz2, View.ld_unit_zero (S := S1x128) hz2, View.ld_unit_zero (S := S128x16) hz2,
    View.ld_unit_zero (S := S1x16) hz2]
  intro p hp
  simp only [List.mem_cons, List.mem_nil_iff, or_false] at hp
  rcases hp with rfl | rfl
  · exact fun x => anc_piece' x0 x1 x2 x3 x4 x5 inb_S1x8192x20_S1x8192x4_0_0_16 x
  · exact fun x => lat_piece' x0 x1 x2 x3 x4 x5 inb_S1x8192x20_S1x8192x16_0_0_0 x

/-! ## From blocks to arrays -/

/-- The step of blocks is the block of the step: if the state block and the gathered-features block are rows
    (bb, pp) of the arrays `Y` and `Z`, and the weight and bias blocks are the whole weight and bias arrays,
    the block step at local vertex (u, r) is the array step at vertex (bb, pp). -/
theorem stepAt_of_blocks (Y : (⟨3, ![8, 81920, 20]⟩ : Shape).Idx → EReal) (Z : (⟨3, ![8, 81920, 60]⟩ : Shape).Idx → EReal)
    (W1 : FVec Ideal S60x128 .f32) (B1 : FVec Ideal S1x128 .f32) (W2 : FVec Ideal S128x16 .f32) (B2 : FVec Ideal S1x16 .f32)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32)
    (u : Fin 1) (r : Fin 8192) (bb : Fin 8) (pp : Fin 81920)
    (h1 : ∀ d : Fin 20, x1 (ix3 u r d) = Y (ix3 bb pp d)) (h0 : ∀ f : Fin 60, x0 (ix3 u r f) = Z (ix3 bb pp f))
    (h2 : x2 = W1) (h3 : x3 = B1) (h4 : x4 = W2) (h5 : x5 = B2) (d : Fin 20) :
    Euler.stepAt (nb := 1) (np := 8192) x1 x0 x2 (fun h => x3 (ix2 (0 : Fin 1) h)) x4 (fun e => x5 (ix2 (0 : Fin 1) e)) u r d
      = Euler.stepAt (nb := 8) (np := 81920) Y Z W1 (fun h => B1 (ix2 (0 : Fin 1) h)) W2 (fun e => B2 (ix2 (0 : Fin 1) e)) bb pp d := by
  subst h2; subst h3; subst h4; subst h5
  exact Euler.stepAt_congr _ _ _ _ _ _ _ _ _ _ _ _ h1 h0 d

section Arrays

variable (V : (c : Dev nD) → (b : Ref sig .tc) → Buf (Elt Ideal) ((c : Thread nD τ).loc b))

/-- The step of the whole arrays the region finds: the state (window 1's array), the gathered features (window 0's),
    the weights (windows 2 and 4) and the one-row biases (windows 3 and 5). -/
abbrev arrStep (c : Dev nD) : (⟨3, ![8, 81920, 20]⟩ : Shape).Idx → EReal :=
  Euler.step (nb := 8) (np := 81920) (V c main_arg0) (V c main_v10) (V c main_arg2) (fun h => V c main_v0 (ix2 (0 : Fin 1) h))
    (V c main_arg4) (fun e => V c main_v1 (ix2 (0 : Fin 1) e))

/-- The printed index maps, decided over the 80 grid points: the two moving input windows and the second output
    move with the first output's block (b, i, 0); the weight and bias windows stay at block (0, 0). -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = win0_6.index t (1 : Fin 3)
    ∧ win0_1.index t (2 : Fin 3) = 0
    ∧ win0_7.index t (0 : Fin 3) = win0_6.index t (0 : Fin 3) ∧ win0_7.index t (1 : Fin 3) = win0_6.index t (1 : Fin 3)
    ∧ win0_7.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 7 ∧ win0_6.index t (1 : Fin 3) ≤ 9 ∧ win0_6.index t (2 : Fin 3) = 0 :=
  (by decide +kernel : ∀ t : Fin grid0.N, _)

/-- Every block (q0, q1, 0) of the output arrays is some point's. -/
theorem idx_onto : ∀ (q0 : Fin 8) (q1 : Fin 10), ∃ t : Fin cfg0.N,
    win0_6.index t (0 : Fin 3) = q0.val ∧ win0_6.index t (1 : Fin 3) = q1.val :=
  (by decide +kernel : ∀ (q0 : Fin 8) (q1 : Fin 10), ∃ t : Fin grid0.N,
    win0_6.index t (0 : Fin 3) = q0.val ∧ win0_6.index t (1 : Fin 3) = q1.val)

/-- The block step of the input blocks at point `t`, at local index (u, r, d), is the array step at
    (b, 8192 i + r, d), (b, i, 0) the point's output block. -/
theorem block_at (c : Dev nD) (t : Fin cfg0.N) (u : Fin 1) (r : Fin 8192) (d : Fin 20)
    (bb : Fin 8) (pp : Fin 81920) (hbb : bb.val = win0_6.index t (0 : Fin 3)) (hpp : pp.val = win0_6.index t (1 : Fin 3) * 8192 + r.val) :
    blockStep (iblk0 V c 0 t) (iblk0 V c 1 t) (iblk0 V c 2 t) (iblk0 V c 3 t) (iblk0 V c 4 t) (iblk0 V c 5 t) (ix3 u r d)
      = arrStep V c (ix3 bb pp d) := by
  obtain ⟨f00, f01, f02, f10, f11, f12, f70, f71, f72, f20, f21, f30, f31, f40, f41, f50, f51, b0, b1, f62⟩ := idx_facts t
  have hu : u.val = 0 := by omega
  show Euler.stepAt _ _ _ _ _ _ u r d = Euler.stepAt _ _ _ _ _ _ bb pp d
  refine stepAt_of_blocks (V c main_arg0) (V c main_v10) (V c main_arg2) (V c main_v0) (V c main_arg4) (V c main_v1)
    (iblk0 V c 0 t) (iblk0 V c 1 t) (iblk0 V c 2 t) (iblk0 V c 3 t) (iblk0 V c 4 t) (iblk0 V c 5 t) u r bb pp ?_ ?_ ?_ ?_ ?_ ?_ d
  · intro d'
    show V c main_arg0 (((cfg0.win 1).blk t).view.emb (ix3 u r d')) = V c main_arg0 (ix3 bb pp d')
    refine congrArg _ (funext fun a => Fin.ext ?_)
    match a with
    | ⟨0, _⟩ => show win0_1.index t (0 : Fin 3) * 1 + 1 * u.val = bb.val; omega
    | ⟨1, _⟩ => show win0_1.index t (1 : Fin 3) * 8192 + 1 * r.val = pp.val; omega
    | ⟨2, _⟩ => show win0_1.index t (2 : Fin 3) * 20 + 1 * d'.val = d'.val; omega
  · intro f
    show V c main_v10 (((cfg0.win 0).blk t).view.emb (ix3 u r f)) = V c main_v10 (ix3 bb pp f)
    refine congrArg _ (funext fun a => Fin.ext ?_)
    match a with
    | ⟨0, _⟩ => show win0_0.index t (0 : Fin 3) * 1 + 1 * u.val = bb.val; omega
    | ⟨1, _⟩ => show win0_0.index t (1 : Fin 3) * 8192 + 1 * r.val = pp.val; omega
    | ⟨2, _⟩ => show win0_0.index t (2 : Fin 3) * 60 + 1 * f.val = f.val; omega
  · funext j
    show V c main_arg2 (((cfg0.win 2).blk t).view.emb j) = V c main_arg2 j
    refine congrArg _ (funext fun a => Fin.ext ?_)
    match a with
    | ⟨0, _⟩ => show win0_2.index t (0 : Fin 2) * 60 + 1 * (j 0).val = (j 0).val; omega
    | ⟨1, _⟩ => show win0_2.index t (1 : Fin 2) * 128 + 1 * (j 1).val = (j 1).val; omega
  · funext j
    show V c main_v0 (((cfg0.win 3).blk t).view.emb j) = V c main_v0 j
    refine congrArg _ (funext fun a => Fin.ext ?_)
    match a with
    | ⟨0, _⟩ => show win0_3.index t (0 : Fin 2) * 1 + 1 * (j 0).val = (j 0).val; omega
    | ⟨1, _⟩ => show win0_3.index t (1 : Fin 2) * 128 + 1 * (j 1).val = (j 1).val; omega
  · funext j
    show V c main_arg4 (((cfg0.win 4).blk t).view.emb j) = V c main_arg4 j
    refine congrArg _ (funext fun a => Fin.ext ?_)
    match a with
    | ⟨0, _⟩ => show win0_4.index t (0 : Fin 2) * 128 + 1 * (j 0).val = (j 0).val; omega
    | ⟨1, _⟩ => show win0_4.index t (1 : Fin 2) * 16 + 1 * (j 1).val = (j 1).val; omega
  · funext j
    show V c main_v1 (((cfg0.win 5).blk t).view.emb j) = V c main_v1 j
    refine congrArg _ (funext fun a => Fin.ext ?_)
    match a with
    | ⟨0, _⟩ => show win0_5.index t (0 : Fin 2) * 1 + 1 * (j 0).val = (j 0).val; omega
    | ⟨1, _⟩ => show win0_5.index t (1 : Fin 2) * 16 + 1 * (j 1).val = (j 1).val; omega

/-- What point `t` writes back to the first output: block `t` of the step of the arrays. -/
theorem flushed6 (c : Dev nD) (t : Fin cfg0.N) :
    (dat0 V c).flushed 6 t = ((cfg0.win 6).blk t).view.read (Elt Ideal) (arrStep V c) := by
  show (cfg0.win 6).cut (grid0.coords t) ((dat0 V c).after 6 t) = _
  rw [after0_6]
  unfold outsAt0
  dsimp only
  rw [out6_eq]
  obtain ⟨f00, f01, f02, f10, f11, f12, f70, f71, f72, f20, f21, f30, f31, f40, f41, f50, f51, b0, b1, f62⟩ := idx_facts t
  funext y
  obtain ⟨u, r, d, rfl⟩ : ∃ (u : Fin 1) (r : Fin 8192) (d : Fin 20), y = ix3 u r d := ⟨y 0, y 1, y 2, eq_ix3 y⟩
  have hu : u.val = 0 := by omega
  have hemb : ((cfg0.win 6).blk t).view.emb (ix3 u r d)
      = ix3 (⟨win0_6.index t (0 : Fin 3), by omega⟩ : Fin 8) (⟨win0_6.index t (1 : Fin 3) * 8192 + r.val, by omega⟩ : Fin 81920) d :=
    funext fun a => Fin.ext (by
      match a with
      | ⟨0, _⟩ => show win0_6.index t (0 : Fin 3) * 1 + 1 * u.val = win0_6.index t (0 : Fin 3); omega
      | ⟨1, _⟩ => show win0_6.index t (1 : Fin 3) * 8192 + 1 * r.val = win0_6.index t (1 : Fin 3) * 8192 + r.val; omega
      | ⟨2, _⟩ => show win0_6.index t (2 : Fin 3) * 20 + 1 * d.val = d.val; omega)
  show blockStep _ _ _ _ _ _ (ix3 u r d) = arrStep V c (((cfg0.win 6).blk t).view.emb (ix3 u r d))
  rw [hemb]
  exact block_at V c t u r d _ _ rfl rfl

/-- What point `t` writes back to the second output: the same block. -/
theorem flushed7 (c : Dev nD) (t : Fin cfg0.N) :
    (dat0 V c).flushed 7 t = ((cfg0.win 7).blk t).view.read (Elt Ideal) (arrStep V c) := by
  show (cfg0.win 7).cut (grid0.coords t) ((dat0 V c).after 7 t) = _
  rw [after0_7]
  unfold outsAt0
  dsimp only
  rw [out7_eq]
  obtain ⟨f00, f01, f02, f10, f11, f12, f70, f71, f72, f20, f21, f30, f31, f40, f41, f50, f51, b0, b1, f62⟩ := idx_facts t
  funext y
  obtain ⟨u, r, d, rfl⟩ : ∃ (u : Fin 1) (r : Fin 8192) (d : Fin 20), y = ix3 u r d := ⟨y 0, y 1, y 2, eq_ix3 y⟩
  have hu : u.val = 0 := by omega
  have hemb : ((cfg0.win 7).blk t).view.emb (ix3 u r d)
      = ix3 (⟨win0_6.index t (0 : Fin 3), by omega⟩ : Fin 8) (⟨win0_6.index t (1 : Fin 3) * 8192 + r.val, by omega⟩ : Fin 81920) d :=
    funext fun a => Fin.ext (by
      match a with
      | ⟨0, _⟩ => show win0_7.index t (0 : Fin 3) * 1 + 1 * u.val = win0_6.index t (0 : Fin 3); omega
      | ⟨1, _⟩ => show win0_7.index t (1 : Fin 3) * 8192 + 1 * r.val = win0_6.index t (1 : Fin 3) * 8192 + r.val; omega
      | ⟨2, _⟩ => show win0_7.index t (2 : Fin 3) * 20 + 1 * d.val = d.val; omega)
  show blockStep _ _ _ _ _ _ (ix3 u r d) = arrStep V c (((cfg0.win 7).blk t).view.emb (ix3 u r d))
  rw [hemb]
  exact block_at V c t u r d _ _ rfl rfl

/-- Every element of the first output array is in some point's block: (b, p, d) in the block of point (b, p / 8192). -/
theorem cover6 (i : (⟨3, ![8, 81920, 20]⟩ : Shape).Idx) :
    ∃ t : Fin cfg0.N, (cfg0.win 6).flush t = true ∧ i ∈ ((cfg0.win 6).blk t).view.set := by
  have h0 : (i 0).val < 8 := (i 0).isLt
  have h1 : (i 1).val < 81920 := (i 1).isLt
  have h2 : (i 2).val < 20 := (i 2).isLt
  obtain ⟨t, q0, q1⟩ := idx_onto ⟨(i 0).val, h0⟩ ⟨(i 1).val / 8192, by omega⟩
  obtain ⟨f00, f01, f02, f10, f11, f12, f70, f71, f72, f20, f21, f30, f31, f40, f41, f50, f51, b0, b1, f62⟩ := idx_facts t
  refine ⟨t, flush0_6 t, ?_⟩
  show i ∈ ((View.whole main_v11_0).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; dsimp only at q0; omega
  | ⟨1, _⟩ => show win0_6.index t (1 : Fin 3) * 8192 ≤ (i 1).val ∧ (i 1).val < win0_6.index t (1 : Fin 3) * 8192 + 8192; dsimp only at q1; omega
  | ⟨2, _⟩ => show win0_6.index t (2 : Fin 3) * 20 ≤ (i 2).val ∧ (i 2).val < win0_6.index t (2 : Fin 3) * 20 + 20; omega

/-- The same for the second output array. -/
theorem cover7 (i : (⟨3, ![8, 81920, 20]⟩ : Shape).Idx) :
    ∃ t : Fin cfg0.N, (cfg0.win 7).flush t = true ∧ i ∈ ((cfg0.win 7).blk t).view.set := by
  have h0 : (i 0).val < 8 := (i 0).isLt
  have h1 : (i 1).val < 81920 := (i 1).isLt
  have h2 : (i 2).val < 20 := (i 2).isLt
  obtain ⟨t, q0, q1⟩ := idx_onto ⟨(i 0).val, h0⟩ ⟨(i 1).val / 8192, by omega⟩
  obtain ⟨f00, f01, f02, f10, f11, f12, f70, f71, f72, f20, f21, f30, f31, f40, f41, f50, f51, b0, b1, f62⟩ := idx_facts t
  refine ⟨t, flush0_7 t, ?_⟩
  show i ∈ ((View.whole main_v11_1).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; dsimp only at q0; omega
  | ⟨1, _⟩ => show win0_7.index t (1 : Fin 3) * 8192 ≤ (i 1).val ∧ (i 1).val < win0_7.index t (1 : Fin 3) * 8192 + 8192; dsimp only at q1; omega
  | ⟨2, _⟩ => show win0_7.index t (2 : Fin 3) * 20 ≤ (i 2).val ∧ (i 2).val < win0_7.index t (2 : Fin 3) * 20 + 20; omega

/-- The first output array after the region: the step of the arrays the region found. -/
theorem arr6 (c : Dev nD) : (dat0 V c).arrAt 6 cfg0.N = arrStep V c :=
  (dat0 V c).arrAt_eq_of_cover 6 (arrStep V c) (fun t _ => flushed6 V c t) cover6

/-- The second output array after the region: the same values. -/
theorem arr7 (c : Dev nD) : (dat0 V c).arrAt 7 cfg0.N = arrStep V c :=
  (dat0 V c).arrAt_eq_of_cover 7 (arrStep V c) (fun t _ => flushed7 V c t) cover7

end Arrays

end Cert.KernelIdeal.Region0

end
-- ==== Proof.Region1.lean ====
/-
  Region 1: what the second kernel launch leaves in its two output arrays.

  The same kernel as region 0 on the same 8 × 10 grid, over the buffers this launch is given: each point's body
  leaves the Euler step of its state block and gathered-features block in both output blocks (the body's stores
  are region 0's, whose two payload lemmas are reused), the step of blocks is the block of the step, and the 80
  blocks tile the arrays, which end holding the step of the whole arrays the region found.
-/
import proofs.«172859_j12378095747571_2_alg».proof.Proof.Gen.KernelIdeal.Frame
import proofs.«172859_j12378095747571_2_alg».proof.Proof.Region0

set_option maxRecDepth 16384

noncomputable section

namespace Cert.KernelIdeal.Region1

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)
open Cert.KernelIdeal.Region0 (hz3 hz2 blockStep anc_piece lat_piece anc_piece' lat_piece' stepAt_of_blocks)

/-- What the body leaves in the first output's block: the block step. -/
theorem out6_eq (c : Dev nD) (i : grid1.Coords) (arg2 : Memref sig .tc .vmem S1x8192x60 .bf16) (harg2 : arg2.IsWhole) (arg3 : Memref sig .tc .vmem S1x8192x20 .f32) (harg3 : arg3.IsWhole) (arg4 : Memref sig .tc .vmem S60x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S1x8192x20 .f32) (harg8 : arg8.IsWhole) (arg9 : Memref sig .tc .vmem S1x8192x20 .bf16) (harg9 : arg9.IsWhole)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) :
    out1_A_6 (F := Ideal) c i arg2 harg2 arg3 harg3 arg4 harg4 arg5 harg5 arg6 harg6 arg7 harg7 arg8 harg8 arg9 harg9 x0 x1 x2 x3 x4 x5 = blockStep x0 x1 x2 x3 x4 x5 := by
  unfold out1_A_6
  rw [View.read_writes_eq_canon _ _ _ (cover1_A_6 (F := Ideal) c i arg2 harg2 arg3 harg3 arg4 harg4 arg5 harg5 arg6 harg6 arg7 harg7 arg8 harg8 arg9 harg9 x0 x1 x2 x3 x4 x5)]
  funext y
  refine View.canon_apply_of_pieces (blockStep x0 x1 x2 x3 x4 x5) _ ?_ y (cover1_A_6 (F := Ideal) c i arg2 harg2 arg3 harg3 arg4 harg4 arg5 harg5 arg6 harg6 arg7 harg7 arg8 harg8 arg9 harg9 x0 x1 x2 x3 x4 x5 y)
  unfold kernelRun1_A
  dsimp only
  simp only [View.readAt_eq_ld, harg2.read_unread, harg3.read_unread, harg4.read_unread, harg5.read_unread, harg6.read_unread,
    harg7.read_unread, View.ld_unit_zero (S := S1x8192x60) hz3, View.ld_unit_zero (S := S1x8192x20) hz3,
    View.ld_unit_zero (S := S60x128) hz2, View.ld_unit_zero (S := S1x128) hz2, View.ld_unit_zero (S := S128x16) hz2,
    View.ld_unit_zero (S := S1x16) hz2]
  intro p hp
  simp only [List.mem_cons, List.mem_nil_iff, or_false] at hp
  rcases hp with rfl | rfl
  · exact fun x => anc_piece x0 x1 x2 x3 x4 x5 inb_S1x8192x20_S1x8192x4_0_0_16 x
  · exact fun x => lat_piece x0 x1 x2 x3 x4 x5 inb_S1x8192x20_S1x8192x16_0_0_0 x

/-- What the body leaves in the second output's block: the same block step. -/
theorem out7_eq (c : Dev nD) (i : grid1.Coords) (arg2 : Memref sig .tc .vmem S1x8192x60 .bf16) (harg2 : arg2.IsWhole) (arg3 : Memref sig .tc .vmem S1x8192x20 .f32) (harg3 : arg3.IsWhole) (arg4 : Memref sig .tc .vmem S60x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S1x8192x20 .f32) (harg8 : arg8.IsWhole) (arg9 : Memref sig .tc .vmem S1x8192x20 .bf16) (harg9 : arg9.IsWhole)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) :
    out1_A_7 (F := Ideal) c i arg2 harg2 arg3 harg3 arg4 harg4 arg5 harg5 arg6 harg6 arg7 harg7 arg8 harg8 arg9 harg9 x0 x1 x2 x3 x4 x5 = blockStep x0 x1 x2 x3 x4 x5 := by
  unfold out1_A_7
  rw [View.read_writes_eq_canon _ _ _ (cover1_A_7 (F := Ideal) c i arg2 harg2 arg3 harg3 arg4 harg4 arg5 harg5 arg6 harg6 arg7 harg7 arg8 harg8 arg9 harg9 x0 x1 x2 x3 x4 x5)]
  funext y
  refine View.canon_apply_of_pieces (blockStep x0 x1 x2 x3 x4 x5) _ ?_ y (cover1_A_7 (F := Ideal) c i arg2 harg2 arg3 harg3 arg4 harg4 arg5 harg5 arg6 harg6 arg7 harg7 arg8 harg8 arg9 harg9 x0 x1 x2 x3 x4 x5 y)
  unfold kernelRun1_A
  dsimp only
  sl_unfold_words
  simp only [View.readAt_eq_ld, harg2.read_unread, harg3.read_unread, harg4.read_unread, harg5.read_unread, harg6.read_unread,
    harg7.read_unread, View.ld_unit_zero (S := S1x8192x60) hz3, View.ld_unit_zero (S := S1x8192x20) hz3,
    View.ld_unit_zero (S := S60x128) hz2, View.ld_unit_zero (S := S1x128) hz2, View.ld_unit_zero (S := S128x16) hz2,
    View.ld_unit_zero (S := S1x16) hz2]
  intro p hp
  simp only [List.mem_cons, List.mem_nil_iff, or_false] at hp
  rcases hp with rfl | rfl
  · exact fun x => anc_piece' x0 x1 x2 x3 x4 x5 inb_S1x8192x20_S1x8192x4_0_0_16 x
  · exact fun x => lat_piece' x0 x1 x2 x3 x4 x5 inb_S1x8192x20_S1x8192x16_0_0_0 x

/-! ## From blocks to arrays -/

section Arrays

variable (V : (c : Dev nD) → (b : Ref sig .tc) → Buf (Elt Ideal) ((c : Thread nD τ).loc b))

/-- The step of the whole arrays the region finds: the state (window 1's array), the gathered features (window 0's),
    the weights (windows 2 and 4) and the one-row biases (windows 3 and 5). -/
abbrev arrStep (c : Dev nD) : (⟨3, ![8, 81920, 20]⟩ : Shape).Idx → EReal :=
  Euler.step (nb := 8) (np := 81920) (V c main_v11_0) (V c main_v19) (V c main_arg2) (fun h => V c main_v0 (ix2 (0 : Fin 1) h))
    (V c main_arg4) (fun e => V c main_v1 (ix2 (0 : Fin 1) e))

/-- The printed index maps, decided over the 80 grid points: the two moving input windows and the second output
    move with the first output's block (b, i, 0); the weight and bias windows stay at block (0, 0). -/
theorem idx_facts : ∀ t : Fin cfg1.N,
    win1_0.index t (0 : Fin 3) = win1_6.index t (0 : Fin 3) ∧ win1_0.index t (1 : Fin 3) = win1_6.index t (1 : Fin 3)
    ∧ win1_0.index t (2 : Fin 3) = 0
    ∧ win1_1.index t (0 : Fin 3) = win1_6.index t (0 : Fin 3) ∧ win1_1.index t (1 : Fin 3) = win1_6.index t (1 : Fin 3)
    ∧ win1_1.index t (2 : Fin 3) = 0
    ∧ win1_7.index t (0 : Fin 3) = win1_6.index t (0 : Fin 3) ∧ win1_7.index t (1 : Fin 3) = win1_6.index t (1 : Fin 3)
    ∧ win1_7.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) ≤ 7 ∧ win1_6.index t (1 : Fin 3) ≤ 9 ∧ win1_6.index t (2 : Fin 3) = 0 :=
  (by decide +kernel : ∀ t : Fin grid1.N, _)

/-- Every block (q0, q1, 0) of the output arrays is some point's. -/
theorem idx_onto : ∀ (q0 : Fin 8) (q1 : Fin 10), ∃ t : Fin cfg1.N,
    win1_6.index t (0 : Fin 3) = q0.val ∧ win1_6.index t (1 : Fin 3) = q1.val :=
  (by decide +kernel : ∀ (q0 : Fin 8) (q1 : Fin 10), ∃ t : Fin grid1.N,
    win1_6.index t (0 : Fin 3) = q0.val ∧ win1_6.index t (1 : Fin 3) = q1.val)

/-- The block step of the input blocks at point `t`, at local index (u, r, d), is the array step at
    (b, 8192 i + r, d), (b, i, 0) the point's output block. -/
theorem block_at (c : Dev nD) (t : Fin cfg1.N) (u : Fin 1) (r : Fin 8192) (d : Fin 20)
    (bb : Fin 8) (pp : Fin 81920) (hbb : bb.val = win1_6.index t (0 : Fin 3)) (hpp : pp.val = win1_6.index t (1 : Fin 3) * 8192 + r.val) :
    blockStep (iblk1 V c 0 t) (iblk1 V c 1 t) (iblk1 V c 2 t) (iblk1 V c 3 t) (iblk1 V c 4 t) (iblk1 V c 5 t) (ix3 u r d)
      = arrStep V c (ix3 bb pp d) := by
  obtain ⟨f00, f01, f02, f10, f11, f12, f70, f71, f72, f20, f21, f30, f31, f40, f41, f50, f51, b0, b1, f62⟩ := idx_facts t
  have hu : u.val = 0 := by omega
  show Euler.stepAt _ _ _ _ _ _ u r d = Euler.stepAt _ _ _ _ _ _ bb pp d
  refine stepAt_of_blocks (V c main_v11_0) (V c main_v19) (V c main_arg2) (V c main_v0) (V c main_arg4) (V c main_v1)
    (iblk1 V c 0 t) (iblk1 V c 1 t) (iblk1 V c 2 t) (iblk1 V c 3 t) (iblk1 V c 4 t) (iblk1 V c 5 t) u r bb pp ?_ ?_ ?_ ?_ ?_ ?_ d
  · intro d'
    show V c main_v11_0 (((cfg1.win 1).blk t).view.emb (ix3 u r d')) = V c main_v11_0 (ix3 bb pp d')
    refine congrArg _ (funext fun a => Fin.ext ?_)
    match a with
    | ⟨0, _⟩ => show win1_1.index t (0 : Fin 3) * 1 + 1 * u.val = bb.val; omega
    | ⟨1, _⟩ => show win1_1.index t (1 : Fin 3) * 8192 + 1 * r.val = pp.val; omega
    | ⟨2, _⟩ => show win1_1.index t (2 : Fin 3) * 20 + 1 * d'.val = d'.val; omega
  · intro f
    show V c main_v19 (((cfg1.win 0).blk t).view.emb (ix3 u r f)) = V c main_v19 (ix3 bb pp f)
    refine congrArg _ (funext fun a => Fin.ext ?_)
    match a with
    | ⟨0, _⟩ => show win1_0.index t (0 : Fin 3) * 1 + 1 * u.val = bb.val; omega
    | ⟨1, _⟩ => show win1_0.index t (1 : Fin 3) * 8192 + 1 * r.val = pp.val; omega
    | ⟨2, _⟩ => show win1_0.index t (2 : Fin 3) * 60 + 1 * f.val = f.val; omega
  · funext j
    show V c main_arg2 (((cfg1.win 2).blk t).view.emb j) = V c main_arg2 j
    refine congrArg _ (funext fun a => Fin.ext ?_)
    match a with
    | ⟨0, _⟩ => show win1_2.index t (0 : Fin 2) * 60 + 1 * (j 0).val = (j 0).val; omega
    | ⟨1, _⟩ => show win1_2.index t (1 : Fin 2) * 128 + 1 * (j 1).val = (j 1).val; omega
  · funext j
    show V c main_v0 (((cfg1.win 3).blk t).view.emb j) = V c main_v0 j
    refine congrArg _ (funext fun a => Fin.ext ?_)
    match a with
    | ⟨0, _⟩ => show win1_3.index t (0 : Fin 2) * 1 + 1 * (j 0).val = (j 0).val; omega
    | ⟨1, _⟩ => show win1_3.index t (1 : Fin 2) * 128 + 1 * (j 1).val = (j 1).val; omega
  · funext j
    show V c main_arg4 (((cfg1.win 4).blk t).view.emb j) = V c main_arg4 j
    refine congrArg _ (funext fun a => Fin.ext ?_)
    match a with
    | ⟨0, _⟩ => show win1_4.index t (0 : Fin 2) * 128 + 1 * (j 0).val = (j 0).val; omega
    | ⟨1, _⟩ => show win1_4.index t (1 : Fin 2) * 16 + 1 * (j 1).val = (j 1).val; omega
  · funext j
    show V c main_v1 (((cfg1.win 5).blk t).view.emb j) = V c main_v1 j
    refine congrArg _ (funext fun a => Fin.ext ?_)
    match a with
    | ⟨0, _⟩ => show win1_5.index t (0 : Fin 2) * 1 + 1 * (j 0).val = (j 0).val; omega
    | ⟨1, _⟩ => show win1_5.index t (1 : Fin 2) * 16 + 1 * (j 1).val = (j 1).val; omega

/-- What point `t` writes back to the first output: block `t` of the step of the arrays. -/
theorem flushed6 (c : Dev nD) (t : Fin cfg1.N) :
    (dat1 V c).flushed 6 t = ((cfg1.win 6).blk t).view.read (Elt Ideal) (arrStep V c) := by
  show (cfg1.win 6).cut (grid1.coords t) ((dat1 V c).after 6 t) = _
  rw [after1_6]
  unfold outsAt1
  dsimp only
  rw [out6_eq]
  obtain ⟨f00, f01, f02, f10, f11, f12, f70, f71, f72, f20, f21, f30, f31, f40, f41, f50, f51, b0, b1, f62⟩ := idx_facts t
  funext y
  obtain ⟨u, r, d, rfl⟩ : ∃ (u : Fin 1) (r : Fin 8192) (d : Fin 20), y = ix3 u r d := ⟨y 0, y 1, y 2, eq_ix3 y⟩
  have hu : u.val = 0 := by omega
  have hemb : ((cfg1.win 6).blk t).view.emb (ix3 u r d)
      = ix3 (⟨win1_6.index t (0 : Fin 3), by omega⟩ : Fin 8) (⟨win1_6.index t (1 : Fin 3) * 8192 + r.val, by omega⟩ : Fin 81920) d :=
    funext fun a => Fin.ext (by
      match a with
      | ⟨0, _⟩ => show win1_6.index t (0 : Fin 3) * 1 + 1 * u.val = win1_6.index t (0 : Fin 3); omega
      | ⟨1, _⟩ => show win1_6.index t (1 : Fin 3) * 8192 + 1 * r.val = win1_6.index t (1 : Fin 3) * 8192 + r.val; omega
      | ⟨2, _⟩ => show win1_6.index t (2 : Fin 3) * 20 + 1 * d.val = d.val; omega)
  show blockStep _ _ _ _ _ _ (ix3 u r d) = arrStep V c (((cfg1.win 6).blk t).view.emb (ix3 u r d))
  rw [hemb]
  exact block_at V c t u r d _ _ rfl rfl

/-- What point `t` writes back to the second output: the same block. -/
theorem flushed7 (c : Dev nD) (t : Fin cfg1.N) :
    (dat1 V c).flushed 7 t = ((cfg1.win 7).blk t).view.read (Elt Ideal) (arrStep V c) := by
  show (cfg1.win 7).cut (grid1.coords t) ((dat1 V c).after 7 t) = _
  rw [after1_7]
  unfold outsAt1
  dsimp only
  rw [out7_eq]
  obtain ⟨f00, f01, f02, f10, f11, f12, f70, f71, f72, f20, f21, f30, f31, f40, f41, f50, f51, b0, b1, f62⟩ := idx_facts t
  funext y
  obtain ⟨u, r, d, rfl⟩ : ∃ (u : Fin 1) (r : Fin 8192) (d : Fin 20), y = ix3 u r d := ⟨y 0, y 1, y 2, eq_ix3 y⟩
  have hu : u.val = 0 := by omega
  have hemb : ((cfg1.win 7).blk t).view.emb (ix3 u r d)
      = ix3 (⟨win1_6.index t (0 : Fin 3), by omega⟩ : Fin 8) (⟨win1_6.index t (1 : Fin 3) * 8192 + r.val, by omega⟩ : Fin 81920) d :=
    funext fun a => Fin.ext (by
      match a with
      | ⟨0, _⟩ => show win1_7.index t (0 : Fin 3) * 1 + 1 * u.val = win1_6.index t (0 : Fin 3); omega
      | ⟨1, _⟩ => show win1_7.index t (1 : Fin 3) * 8192 + 1 * r.val = win1_6.index t (1 : Fin 3) * 8192 + r.val; omega
      | ⟨2, _⟩ => show win1_7.index t (2 : Fin 3) * 20 + 1 * d.val = d.val; omega)
  show blockStep _ _ _ _ _ _ (ix3 u r d) = arrStep V c (((cfg1.win 7).blk t).view.emb (ix3 u r d))
  rw [hemb]
  exact block_at V c t u r d _ _ rfl rfl

/-- Every element of the first output array is in some point's block: (b, p, d) in the block of point (b, p / 8192). -/
theorem cover6 (i : (⟨3, ![8, 81920, 20]⟩ : Shape).Idx) :
    ∃ t : Fin cfg1.N, (cfg1.win 6).flush t = true ∧ i ∈ ((cfg1.win 6).blk t).view.set := by
  have h0 : (i 0).val < 8 := (i 0).isLt
  have h1 : (i 1).val < 81920 := (i 1).isLt
  have h2 : (i 2).val < 20 := (i 2).isLt
  obtain ⟨t, q0, q1⟩ := idx_onto ⟨(i 0).val, h0⟩ ⟨(i 1).val / 8192, by omega⟩
  obtain ⟨f00, f01, f02, f10, f11, f12, f70, f71, f72, f20, f21, f30, f31, f40, f41, f50, f51, b0, b1, f62⟩ := idx_facts t
  refine ⟨t, flush1_6 t, ?_⟩
  show i ∈ ((View.whole main_v20_0).slice (win1_6.rect t)).set
  rw [View.set_slice_whole, Rect.mem_set_unit]
  intro a
  match a with
  | ⟨0, _⟩ => show win1_6.index t (0 : Fin 3) * 1 ≤ (i 0).val ∧ (i 0).val < win1_6.index t (0 : Fin 3) * 1 + 1; dsimp only at q0; omega
  | ⟨1, _⟩ => show win1_6.index t (1 : Fin 3) * 8192 ≤ (i 1).val ∧ (i 1).val < win1_6.index t (1 : Fin 3) * 8192 + 8192; dsimp only at q1; omega
  | ⟨2, _⟩ => show win1_6.index t (2 : Fin 3) * 20 ≤ (i 2).val ∧ (i 2).val < win1_6.index t (2 : Fin 3) * 20 + 20; omega

/-- The same for the second output array. -/
theorem cover7 (i : (⟨3, ![8, 81920, 20]⟩ : Shape).Idx) :
    ∃ t : Fin cfg1.N, (cfg1.win 7).flush t = true ∧ i ∈ ((cfg1.win 7).blk t).view.set := by
  have h0 : (i 0).val < 8 := (i 0).isLt
  have h1 : (i 1).val < 81920 := (i 1).isLt
  have h2 : (i 2).val < 20 := (i 2).isLt
  obtain ⟨t, q0, q1⟩ := idx_onto ⟨(i 0).val, h0⟩ ⟨(i 1).val / 8192, by omega⟩
  obtain ⟨f00, f01, f02, f10, f11, f12, f70, f71, f72, f20, f21, f30, f31, f40, f41, f50, f51, b0, b1, f62⟩ := idx_facts t
  refine ⟨t, flush1_7 t, ?_⟩
  show i ∈ ((View.whole main_v20_1).slice (win1_7.rect t)).set
  rw [View.set_slice_whole, Rect.mem_set_unit]
  intro a
  match a with
  | ⟨0, _⟩ => show win1_7.index t (0 : Fin 3) * 1 ≤ (i 0).val ∧ (i 0).val < win1_7.index t (0 : Fin 3) * 1 + 1; dsimp only at q0; omega
  | ⟨1, _⟩ => show win1_7.index t (1 : Fin 3) * 8192 ≤ (i 1).val ∧ (i 1).val < win1_7.index t (1 : Fin 3) * 8192 + 8192; dsimp only at q1; omega
  | ⟨2, _⟩ => show win1_7.index t (2 : Fin 3) * 20 ≤ (i 2).val ∧ (i 2).val < win1_7.index t (2 : Fin 3) * 20 + 20; omega

/-- The first output array after the region: the step of the arrays the region found. -/
theorem arr6 (c : Dev nD) : (dat1 V c).arrAt 6 cfg1.N = arrStep V c :=
  (dat1 V c).arrAt_eq_of_cover 6 (arrStep V c) (fun t _ => flushed6 V c t) cover6

/-- The second output array after the region: the same values. -/
theorem arr7 (c : Dev nD) : (dat1 V c).arrAt 7 cfg1.N = arrStep V c :=
  (dat1 V c).arrAt_eq_of_cover 7 (arrStep V c) (fun t _ => flushed7 V c t) cover7

end Arrays

end Cert.KernelIdeal.Region1

end
-- ==== Proof.Region2.lean ====
/-
  Region 2: what the third kernel launch leaves in its two output arrays.

  The same kernel as region 0 on the same 8 × 10 grid, over the buffers this launch is given: each point's body
  leaves the Euler step of its state block and gathered-features block in both output blocks (the body's stores
  are region 0's, whose two payload lemmas are reused), the step of blocks is the block of the step, and the 80
  blocks tile the arrays, which end holding the step of the whole arrays the region found.
-/
import proofs.«172859_j12378095747571_2_alg».proof.Proof.Gen.KernelIdeal.Frame
import proofs.«172859_j12378095747571_2_alg».proof.Proof.Region0

set_option maxRecDepth 16384

noncomputable section

namespace Cert.KernelIdeal.Region2

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)
open Cert.KernelIdeal.Region0 (hz3 hz2 blockStep anc_piece lat_piece anc_piece' lat_piece' stepAt_of_blocks)

/-- What the body leaves in the first output's block: the block step. -/
theorem out6_eq (c : Dev nD) (i : grid2.Coords) (arg2 : Memref sig .tc .vmem S1x8192x60 .bf16) (harg2 : arg2.IsWhole) (arg3 : Memref sig .tc .vmem S1x8192x20 .f32) (harg3 : arg3.IsWhole) (arg4 : Memref sig .tc .vmem S60x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S1x8192x20 .f32) (harg8 : arg8.IsWhole) (arg9 : Memref sig .tc .vmem S1x8192x20 .bf16) (harg9 : arg9.IsWhole)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) :
    out2_A_6 (F := Ideal) c i arg2 harg2 arg3 harg3 arg4 harg4 arg5 harg5 arg6 harg6 arg7 harg7 arg8 harg8 arg9 harg9 x0 x1 x2 x3 x4 x5 = blockStep x0 x1 x2 x3 x4 x5 := by
  unfold out2_A_6
  rw [View.read_writes_eq_canon _ _ _ (cover2_A_6 (F := Ideal) c i arg2 harg2 arg3 harg3 arg4 harg4 arg5 harg5 arg6 harg6 arg7 harg7 arg8 harg8 arg9 harg9 x0 x1 x2 x3 x4 x5)]
  funext y
  refine View.canon_apply_of_pieces (blockStep x0 x1 x2 x3 x4 x5) _ ?_ y (cover2_A_6 (F := Ideal) c i arg2 harg2 arg3 harg3 arg4 harg4 arg5 harg5 arg6 harg6 arg7 harg7 arg8 harg8 arg9 harg9 x0 x1 x2 x3 x4 x5 y)
  unfold kernelRun2_A
  dsimp only
  simp only [View.readAt_eq_ld, harg2.read_unread, harg3.read_unread, harg4.read_unread, harg5.read_unread, harg6.read_unread,
    harg7.read_unread, View.ld_unit_zero (S := S1x8192x60) hz3, View.ld_unit_zero (S := S1x8192x20) hz3,
    View.ld_unit_zero (S := S60x128) hz2, View.ld_unit_zero (S := S1x128) hz2, View.ld_unit_zero (S := S128x16) hz2,
    View.ld_unit_zero (S := S1x16) hz2]
  intro p hp
  simp only [List.mem_cons, List.mem_nil_iff, or_false] at hp
  rcases hp with rfl | rfl
  · exact fun x => anc_piece x0 x1 x2 x3 x4 x5 inb_S1x8192x20_S1x8192x4_0_0_16 x
  · exact fun x => lat_piece x0 x1 x2 x3 x4 x5 inb_S1x8192x20_S1x8192x16_0_0_0 x

/-- What the body leaves in the second output's block: the same block step. -/
theorem out7_eq (c : Dev nD) (i : grid2.Coords) (arg2 : Memref sig .tc .vmem S1x8192x60 .bf16) (harg2 : arg2.IsWhole) (arg3 : Memref sig .tc .vmem S1x8192x20 .f32) (harg3 : arg3.IsWhole) (arg4 : Memref sig .tc .vmem S60x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S1x8192x20 .f32) (harg8 : arg8.IsWhole) (arg9 : Memref sig .tc .vmem S1x8192x20 .bf16) (harg9 : arg9.IsWhole)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) :
    out2_A_7 (F := Ideal) c i arg2 harg2 arg3 harg3 arg4 harg4 arg5 harg5 arg6 harg6 arg7 harg7 arg8 harg8 arg9 harg9 x0 x1 x2 x3 x4 x5 = blockStep x0 x1 x2 x3 x4 x5 := by
  unfold out2_A_7
  rw [View.read_writes_eq_canon _ _ _ (cover2_A_7 (F := Ideal) c i arg2 harg2 arg3 harg3 arg4 harg4 arg5 harg5 arg6 harg6 arg7 harg7 arg8 harg8 arg9 harg9 x0 x1 x2 x3 x4 x5)]
  funext y
  refine View.canon_apply_of_pieces (blockStep x0 x1 x2 x3 x4 x5) _ ?_ y (cover2_A_7 (F := Ideal) c i arg2 harg2 arg3 harg3 arg4 harg4 arg5 harg5 arg6 harg6 arg7 harg7 arg8 harg8 arg9 harg9 x0 x1 x2 x3 x4 x5 y)
  unfold kernelRun2_A
  dsimp only
  sl_unfold_words
  simp only [View.readAt_eq_ld, harg2.read_unread, harg3.read_unread, harg4.read_unread, harg5.read_unread, harg6.read_unread,
    harg7.read_unread, View.ld_unit_zero (S := S1x8192x60) hz3, View.ld_unit_zero (S := S1x8192x20) hz3,
    View.ld_unit_zero (S := S60x128) hz2, View.ld_unit_zero (S := S1x128) hz2, View.ld_unit_zero (S := S128x16) hz2,
    View.ld_unit_zero (S := S1x16) hz2]
  intro p hp
  simp only [List.mem_cons, List.mem_nil_iff, or_false] at hp
  rcases hp with rfl | rfl
  · exact fun x => anc_piece' x0 x1 x2 x3 x4 x5 inb_S1x8192x20_S1x8192x4_0_0_16 x
  · exact fun x => lat_piece' x0 x1 x2 x3 x4 x5 inb_S1x8192x20_S1x8192x16_0_0_0 x

/-! ## From blocks to arrays -/

section Arrays

variable (V : (c : Dev nD) → (b : Ref sig .tc) → Buf (Elt Ideal) ((c : Thread nD τ).loc b))

/-- The step of the whole arrays the region finds: the state (window 1's array), the gathered features (window 0's),
    the weights (windows 2 and 4) and the one-row biases (windows 3 and 5). -/
abbrev arrStep (c : Dev nD) : (⟨3, ![8, 81920, 20]⟩ : Shape).Idx → EReal :=
  Euler.step (nb := 8) (np := 81920) (V c main_v20_0) (V c main_v28) (V c main_arg2) (fun h => V c main_v0 (ix2 (0 : Fin 1) h))
    (V c main_arg4) (fun e => V c main_v1 (ix2 (0 : Fin 1) e))

/-- The printed index maps, decided over the 80 grid points: the two moving input windows and the second output
    move with the first output's block (b, i, 0); the weight and bias windows stay at block (0, 0). -/
theorem idx_facts : ∀ t : Fin cfg2.N,
    win2_0.index t (0 : Fin 3) = win2_6.index t (0 : Fin 3) ∧ win2_0.index t (1 : Fin 3) = win2_6.index t (1 : Fin 3)
    ∧ win2_0.index t (2 : Fin 3) = 0
    ∧ win2_1.index t (0 : Fin 3) = win2_6.index t (0 : Fin 3) ∧ win2_1.index t (1 : Fin 3) = win2_6.index t (1 : Fin 3)
    ∧ win2_1.index t (2 : Fin 3) = 0
    ∧ win2_7.index t (0 : Fin 3) = win2_6.index t (0 : Fin 3) ∧ win2_7.index t (1 : Fin 3) = win2_6.index t (1 : Fin 3)
    ∧ win2_7.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) ≤ 7 ∧ win2_6.index t (1 : Fin 3) ≤ 9 ∧ win2_6.index t (2 : Fin 3) = 0 :=
  (by decide +kernel : ∀ t : Fin grid2.N, _)

/-- Every block (q0, q1, 0) of the output arrays is some point's. -/
theorem idx_onto : ∀ (q0 : Fin 8) (q1 : Fin 10), ∃ t : Fin cfg2.N,
    win2_6.index t (0 : Fin 3) = q0.val ∧ win2_6.index t (1 : Fin 3) = q1.val :=
  (by decide +kernel : ∀ (q0 : Fin 8) (q1 : Fin 10), ∃ t : Fin grid2.N,
    win2_6.index t (0 : Fin 3) = q0.val ∧ win2_6.index t (1 : Fin 3) = q1.val)

/-- The block step of the input blocks at point `t`, at local index (u, r, d), is the array step at
    (b, 8192 i + r, d), (b, i, 0) the point's output block. -/
theorem block_at (c : Dev nD) (t : Fin cfg2.N) (u : Fin 1) (r : Fin 8192) (d : Fin 20)
    (bb : Fin 8) (pp : Fin 81920) (hbb : bb.val = win2_6.index t (0 : Fin 3)) (hpp : pp.val = win2_6.index t (1 : Fin 3) * 8192 + r.val) :
    blockStep (iblk2 V c 0 t) (iblk2 V c 1 t) (iblk2 V c 2 t) (iblk2 V c 3 t) (iblk2 V c 4 t) (iblk2 V c 5 t) (ix3 u r d)
      = arrStep V c (ix3 bb pp d) := by
  obtain ⟨f00, f01, f02, f10, f11, f12, f70, f71, f72, f20, f21, f30, f31, f40, f41, f50, f51, b0, b1, f62⟩ := idx_facts t
  have hu : u.val = 0 := by omega
  show Euler.stepAt _ _ _ _ _ _ u r d = Euler.stepAt _ _ _ _ _ _ bb pp d
  refine stepAt_of_blocks (V c main_v20_0) (V c main_v28) (V c main_arg2) (V c main_v0) (V c main_arg4) (V c main_v1)
    (iblk2 V c 0 t) (iblk2 V c 1 t) (iblk2 V c 2 t) (iblk2 V c 3 t) (iblk2 V c 4 t) (iblk2 V c 5 t) u r bb pp ?_ ?_ ?_ ?_ ?_ ?_ d
  · intro d'
    show V c main_v20_0 (((cfg2.win 1).blk t).view.emb (ix3 u r d')) = V c main_v20_0 (ix3 bb pp d')
    refine congrArg _ (funext fun a => Fin.ext ?_)
    match a with
    | ⟨0, _⟩ => show win2_1.index t (0 : Fin 3) * 1 + 1 * u.val = bb.val; omega
    | ⟨1, _⟩ => show win2_1.index t (1 : Fin 3) * 8192 + 1 * r.val = pp.val; omega
    | ⟨2, _⟩ => show win2_1.index t (2 : Fin 3) * 20 + 1 * d'.val = d'.val; omega
  · intro f
    show V c main_v28 (((cfg2.win 0).blk t).view.emb (ix3 u r f)) = V c main_v28 (ix3 bb pp f)
    refine congrArg _ (funext fun a => Fin.ext ?_)
    match a with
    | ⟨0, _⟩ => show win2_0.index t (0 : Fin 3) * 1 + 1 * u.val = bb.val; omega
    | ⟨1, _⟩ => show win2_0.index t (1 : Fin 3) * 8192 + 1 * r.val = pp.val; omega
    | ⟨2, _⟩ => show win2_0.index t (2 : Fin 3) * 60 + 1 * f.val = f.val; omega
  · funext j
    show V c main_arg2 (((cfg2.win 2).blk t).view.emb j) = V c main_arg2 j
    refine congrArg _ (funext fun a => Fin.ext ?_)
    match a with
    | ⟨0, _⟩ => show win2_2.index t (0 : Fin 2) * 60 + 1 * (j 0).val = (j 0).val; omega
    | ⟨1, _⟩ => show win2_2.index t (1 : Fin 2) * 128 + 1 * (j 1).val = (j 1).val; omega
  · funext j
    show V c main_v0 (((cfg2.win 3).blk t).view.emb j) = V c main_v0 j
    refine congrArg _ (funext fun a => Fin.ext ?_)
    match a with
    | ⟨0, _⟩ => show win2_3.index t (0 : Fin 2) * 1 + 1 * (j 0).val = (j 0).val; omega
    | ⟨1, _⟩ => show win2_3.index t (1 : Fin 2) * 128 + 1 * (j 1).val = (j 1).val; omega
  · funext j
    show V c main_arg4 (((cfg2.win 4).blk t).view.emb j) = V c main_arg4 j
    refine congrArg _ (funext fun a => Fin.ext ?_)
    match a with
    | ⟨0, _⟩ => show win2_4.index t (0 : Fin 2) * 128 + 1 * (j 0).val = (j 0).val; omega
    | ⟨1, _⟩ => show win2_4.index t (1 : Fin 2) * 16 + 1 * (j 1).val = (j 1).val; omega
  · funext j
    show V c main_v1 (((cfg2.win 5).blk t).view.emb j) = V c main_v1 j
    refine congrArg _ (funext fun a => Fin.ext ?_)
    match a with
    | ⟨0, _⟩ => show win2_5.index t (0 : Fin 2) * 1 + 1 * (j 0).val = (j 0).val; omega
    | ⟨1, _⟩ => show win2_5.index t (1 : Fin 2) * 16 + 1 * (j 1).val = (j 1).val; omega

/-- What point `t` writes back to the first output: block `t` of the step of the arrays. -/
theorem flushed6 (c : Dev nD) (t : Fin cfg2.N) :
    (dat2 V c).flushed 6 t = ((cfg2.win 6).blk t).view.read (Elt Ideal) (arrStep V c) := by
  show (cfg2.win 6).cut (grid2.coords t) ((dat2 V c).after 6 t) = _
  rw [after2_6]
  unfold outsAt2
  dsimp only
  rw [out6_eq]
  obtain ⟨f00, f01, f02, f10, f11, f12, f70, f71, f72, f20, f21, f30, f31, f40, f41, f50, f51, b0, b1, f62⟩ := idx_facts t
  funext y
  obtain ⟨u, r, d, rfl⟩ : ∃ (u : Fin 1) (r : Fin 8192) (d : Fin 20), y = ix3 u r d := ⟨y 0, y 1, y 2, eq_ix3 y⟩
  have hu : u.val = 0 := by omega
  have hemb : ((cfg2.win 6).blk t).view.emb (ix3 u r d)
      = ix3 (⟨win2_6.index t (0 : Fin 3), by omega⟩ : Fin 8) (⟨win2_6.index t (1 : Fin 3) * 8192 + r.val, by omega⟩ : Fin 81920) d :=
    funext fun a => Fin.ext (by
      match a with
      | ⟨0, _⟩ => show win2_6.index t (0 : Fin 3) * 1 + 1 * u.val = win2_6.index t (0 : Fin 3); omega
      | ⟨1, _⟩ => show win2_6.index t (1 : Fin 3) * 8192 + 1 * r.val = win2_6.index t (1 : Fin 3) * 8192 + r.val; omega
      | ⟨2, _⟩ => show win2_6.index t (2 : Fin 3) * 20 + 1 * d.val = d.val; omega)
  show blockStep _ _ _ _ _ _ (ix3 u r d) = arrStep V c (((cfg2.win 6).blk t).view.emb (ix3 u r d))
  rw [hemb]
  exact block_at V c t u r d _ _ rfl rfl

/-- What point `t` writes back to the second output: the same block. -/
theorem flushed7 (c : Dev nD) (t : Fin cfg2.N) :
    (dat2 V c).flushed 7 t = ((cfg2.win 7).blk t).view.read (Elt Ideal) (arrStep V c) := by
  show (cfg2.win 7).cut (grid2.coords t) ((dat2 V c).after 7 t) = _
  rw [after2_7]
  unfold outsAt2
  dsimp only
  rw [out7_eq]
  obtain ⟨f00, f01, f02, f10, f11, f12, f70, f71, f72, f20, f21, f30, f31, f40, f41, f50, f51, b0, b1, f62⟩ := idx_facts t
  funext y
  obtain ⟨u, r, d, rfl⟩ : ∃ (u : Fin 1) (r : Fin 8192) (d : Fin 20), y = ix3 u r d := ⟨y 0, y 1, y 2, eq_ix3 y⟩
  have hu : u.val = 0 := by omega
  have hemb : ((cfg2.win 7).blk t).view.emb (ix3 u r d)
      = ix3 (⟨win2_6.index t (0 : Fin 3), by omega⟩ : Fin 8) (⟨win2_6.index t (1 : Fin 3) * 8192 + r.val, by omega⟩ : Fin 81920) d :=
    funext fun a => Fin.ext (by
      match a with
      | ⟨0, _⟩ => show win2_7.index t (0 : Fin 3) * 1 + 1 * u.val = win2_6.index t (0 : Fin 3); omega
      | ⟨1, _⟩ => show win2_7.index t (1 : Fin 3) * 8192 + 1 * r.val = win2_6.index t (1 : Fin 3) * 8192 + r.val; omega
      | ⟨2, _⟩ => show win2_7.index t (2 : Fin 3) * 20 + 1 * d.val = d.val; omega)
  show blockStep _ _ _ _ _ _ (ix3 u r d) = arrStep V c (((cfg2.win 7).blk t).view.emb (ix3 u r d))
  rw [hemb]
  exact block_at V c t u r d _ _ rfl rfl

/-- Every element of the first output array is in some point's block: (b, p, d) in the block of point (b, p / 8192). -/
theorem cover6 (i : (⟨3, ![8, 81920, 20]⟩ : Shape).Idx) :
    ∃ t : Fin cfg2.N, (cfg2.win 6).flush t = true ∧ i ∈ ((cfg2.win 6).blk t).view.set := by
  have h0 : (i 0).val < 8 := (i 0).isLt
  have h1 : (i 1).val < 81920 := (i 1).isLt
  have h2 : (i 2).val < 20 := (i 2).isLt
  obtain ⟨t, q0, q1⟩ := idx_onto ⟨(i 0).val, h0⟩ ⟨(i 1).val / 8192, by omega⟩
  obtain ⟨f00, f01, f02, f10, f11, f12, f70, f71, f72, f20, f21, f30, f31, f40, f41, f50, f51, b0, b1, f62⟩ := idx_facts t
  refine ⟨t, flush2_6 t, ?_⟩
  show i ∈ ((View.whole main_v29_0).slice (win2_6.rect t)).set
  rw [View.set_slice_whole, Rect.mem_set_unit]
  intro a
  match a with
  | ⟨0, _⟩ => show win2_6.index t (0 : Fin 3) * 1 ≤ (i 0).val ∧ (i 0).val < win2_6.index t (0 : Fin 3) * 1 + 1; dsimp only at q0; omega
  | ⟨1, _⟩ => show win2_6.index t (1 : Fin 3) * 8192 ≤ (i 1).val ∧ (i 1).val < win2_6.index t (1 : Fin 3) * 8192 + 8192; dsimp only at q1; omega
  | ⟨2, _⟩ => show win2_6.index t (2 : Fin 3) * 20 ≤ (i 2).val ∧ (i 2).val < win2_6.index t (2 : Fin 3) * 20 + 20; omega

/-- The same for the second output array. -/
theorem cover7 (i : (⟨3, ![8, 81920, 20]⟩ : Shape).Idx) :
    ∃ t : Fin cfg2.N, (cfg2.win 7).flush t = true ∧ i ∈ ((cfg2.win 7).blk t).view.set := by
  have h0 : (i 0).val < 8 := (i 0).isLt
  have h1 : (i 1).val < 81920 := (i 1).isLt
  have h2 : (i 2).val < 20 := (i 2).isLt
  obtain ⟨t, q0, q1⟩ := idx_onto ⟨(i 0).val, h0⟩ ⟨(i 1).val / 8192, by omega⟩
  obtain ⟨f00, f01, f02, f10, f11, f12, f70, f71, f72, f20, f21, f30, f31, f40, f41, f50, f51, b0, b1, f62⟩ := idx_facts t
  refine ⟨t, flush2_7 t, ?_⟩
  show i ∈ ((View.whole main_v29_1).slice (win2_7.rect t)).set
  rw [View.set_slice_whole, Rect.mem_set_unit]
  intro a
  match a with
  | ⟨0, _⟩ => show win2_7.index t (0 : Fin 3) * 1 ≤ (i 0).val ∧ (i 0).val < win2_7.index t (0 : Fin 3) * 1 + 1; dsimp only at q0; omega
  | ⟨1, _⟩ => show win2_7.index t (1 : Fin 3) * 8192 ≤ (i 1).val ∧ (i 1).val < win2_7.index t (1 : Fin 3) * 8192 + 8192; dsimp only at q1; omega
  | ⟨2, _⟩ => show win2_7.index t (2 : Fin 3) * 20 ≤ (i 2).val ∧ (i 2).val < win2_7.index t (2 : Fin 3) * 20 + 20; omega

/-- The first output array after the region: the step of the arrays the region found. -/
theorem arr6 (c : Dev nD) : (dat2 V c).arrAt 6 cfg2.N = arrStep V c :=
  (dat2 V c).arrAt_eq_of_cover 6 (arrStep V c) (fun t _ => flushed6 V c t) cover6

/-- The second output array after the region: the same values. -/
theorem arr7 (c : Dev nD) : (dat2 V c).arrAt 7 cfg2.N = arrStep V c :=
  (dat2 V c).arrAt_eq_of_cover 7 (arrStep V c) (fun t _ => flushed7 V c t) cover7

end Arrays

end Cert.KernelIdeal.Region2

end
-- ==== Proof.Region3.lean ====
/-
  Region 3: what the fourth kernel launch leaves in its two output arrays.

  The same kernel as region 0 on the same 8 × 10 grid, over the buffers this launch is given: each point's body
  leaves the Euler step of its state block and gathered-features block in both output blocks (the body's stores
  are region 0's, whose two payload lemmas are reused), the step of blocks is the block of the step, and the 80
  blocks tile the arrays, which end holding the step of the whole arrays the region found.
-/
import proofs.«172859_j12378095747571_2_alg».proof.Proof.Gen.KernelIdeal.Frame
import proofs.«172859_j12378095747571_2_alg».proof.Proof.Region0

set_option maxRecDepth 16384

noncomputable section

namespace Cert.KernelIdeal.Region3

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)
open Cert.KernelIdeal.Region0 (hz3 hz2 blockStep anc_piece lat_piece anc_piece' lat_piece' stepAt_of_blocks)

/-- What the body leaves in the first output's block: the block step. -/
theorem out6_eq (c : Dev nD) (i : grid3.Coords) (arg2 : Memref sig .tc .vmem S1x8192x60 .bf16) (harg2 : arg2.IsWhole) (arg3 : Memref sig .tc .vmem S1x8192x20 .f32) (harg3 : arg3.IsWhole) (arg4 : Memref sig .tc .vmem S60x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S1x8192x20 .f32) (harg8 : arg8.IsWhole) (arg9 : Memref sig .tc .vmem S1x8192x20 .bf16) (harg9 : arg9.IsWhole)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) :
    out3_A_6 (F := Ideal) c i arg2 harg2 arg3 harg3 arg4 harg4 arg5 harg5 arg6 harg6 arg7 harg7 arg8 harg8 arg9 harg9 x0 x1 x2 x3 x4 x5 = blockStep x0 x1 x2 x3 x4 x5 := by
  unfold out3_A_6
  rw [View.read_writes_eq_canon _ _ _ (cover3_A_6 (F := Ideal) c i arg2 harg2 arg3 harg3 arg4 harg4 arg5 harg5 arg6 harg6 arg7 harg7 arg8 harg8 arg9 harg9 x0 x1 x2 x3 x4 x5)]
  funext y
  refine View.canon_apply_of_pieces (blockStep x0 x1 x2 x3 x4 x5) _ ?_ y (cover3_A_6 (F := Ideal) c i arg2 harg2 arg3 harg3 arg4 harg4 arg5 harg5 arg6 harg6 arg7 harg7 arg8 harg8 arg9 harg9 x0 x1 x2 x3 x4 x5 y)
  unfold kernelRun3_A
  dsimp only
  simp only [View.readAt_eq_ld, harg2.read_unread, harg3.read_unread, harg4.read_unread, harg5.read_unread, harg6.read_unread,
    harg7.read_unread, View.ld_unit_zero (S := S1x8192x60) hz3, View.ld_unit_zero (S := S1x8192x20) hz3,
    View.ld_unit_zero (S := S60x128) hz2, View.ld_unit_zero (S := S1x128) hz2, View.ld_unit_zero (S := S128x16) hz2,
    View.ld_unit_zero (S := S1x16) hz2]
  intro p hp
  simp only [List.mem_cons, List.mem_nil_iff, or_false] at hp
  rcases hp with rfl | rfl
  · exact fun x => anc_piece x0 x1 x2 x3 x4 x5 inb_S1x8192x20_S1x8192x4_0_0_16 x
  · exact fun x => lat_piece x0 x1 x2 x3 x4 x5 inb_S1x8192x20_S1x8192x16_0_0_0 x

/-- What the body leaves in the second output's block: the same block step. -/
theorem out7_eq (c : Dev nD) (i : grid3.Coords) (arg2 : Memref sig .tc .vmem S1x8192x60 .bf16) (harg2 : arg2.IsWhole) (arg3 : Memref sig .tc .vmem S1x8192x20 .f32) (harg3 : arg3.IsWhole) (arg4 : Memref sig .tc .vmem S60x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S1x8192x20 .f32) (harg8 : arg8.IsWhole) (arg9 : Memref sig .tc .vmem S1x8192x20 .bf16) (harg9 : arg9.IsWhole)
    (x0 : FVec Ideal S1x8192x60 .bf16) (x1 : FVec Ideal S1x8192x20 .f32) (x2 : FVec Ideal S60x128 .f32)
    (x3 : FVec Ideal S1x128 .f32) (x4 : FVec Ideal S128x16 .f32) (x5 : FVec Ideal S1x16 .f32) :
    out3_A_7 (F := Ideal) c i arg2 harg2 arg3 harg3 arg4 harg4 arg5 harg5 arg6 harg6 arg7 harg7 arg8 harg8 arg9 harg9 x0 x1 x2 x3 x4 x5 = blockStep x0 x1 x2 x3 x4 x5 := by
  unfold out3_A_7
  rw [View.read_writes_eq_canon _ _ _ (cover3_A_7 (F := Ideal) c i arg2 harg2 arg3 harg3 arg4 harg4 arg5 harg5 arg6 harg6 arg7 harg7 arg8 harg8 arg9 harg9 x0 x1 x2 x3 x4 x5)]
  funext y
  refine View.canon_apply_of_pieces (blockStep x0 x1 x2 x3 x4 x5) _ ?_ y (cover3_A_7 (F := Ideal) c i arg2 harg2 arg3 harg3 arg4 harg4 arg5 harg5 arg6 harg6 arg7 harg7 arg8 harg8 arg9 harg9 x0 x1 x2 x3 x4 x5 y)
  unfold kernelRun3_A
  dsimp only
  sl_unfold_words
  simp only [View.readAt_eq_ld, harg2.read_unread, harg3.read_unread, harg4.read_unread, harg5.read_unread, harg6.read_unread,
    harg7.read_unread, View.ld_unit_zero (S := S1x8192x60) hz3, View.ld_unit_zero (S := S1x8192x20) hz3,
    View.ld_unit_zero (S := S60x128) hz2, View.ld_unit_zero (S := S1x128) hz2, View.ld_unit_zero (S := S128x16) hz2,
    View.ld_unit_zero (S := S1x16) hz2]
  intro p hp
  simp only [List.mem_cons, List.mem_nil_iff, or_false] at hp
  rcases hp with rfl | rfl
  · exact fun x => anc_piece' x0 x1 x2 x3 x4 x5 inb_S1x8192x20_S1x8192x4_0_0_16 x
  · exact fun x => lat_piece' x0 x1 x2 x3 x4 x5 inb_S1x8192x20_S1x8192x16_0_0_0 x

/-! ## From blocks to arrays -/

section Arrays

variable (V : (c : Dev nD) → (b : Ref sig .tc) → Buf (Elt Ideal) ((c : Thread nD τ).loc b))

/-- The step of the whole arrays the region finds: the state (window 1's array), the gathered features (window 0's),
    the weights (windows 2 and 4) and the one-row biases (windows 3 and 5). -/
abbrev arrStep (c : Dev nD) : (⟨3, ![8, 81920, 20]⟩ : Shape).Idx → EReal :=
  Euler.step (nb := 8) (np := 81920) (V c main_v29_0) (V c main_v37) (V c main_arg2) (fun h => V c main_v0 (ix2 (0 : Fin 1) h))
    (V c main_arg4) (fun e => V c main_v1 (ix2 (0 : Fin 1) e))

/-- The printed index maps, decided over the 80 grid points: the two moving input windows and the second output
    move with the first output's block (b, i, 0); the weight and bias windows stay at block (0, 0). -/
theorem idx_facts : ∀ t : Fin cfg3.N,
    win3_0.index t (0 : Fin 3) = win3_6.index t (0 : Fin 3) ∧ win3_0.index t (1 : Fin 3) = win3_6.index t (1 : Fin 3)
    ∧ win3_0.index t (2 : Fin 3) = 0
    ∧ win3_1.index t (0 : Fin 3) = win3_6.index t (0 : Fin 3) ∧ win3_1.index t (1 : Fin 3) = win3_6.index t (1 : Fin 3)
    ∧ win3_1.index t (2 : Fin 3) = 0
    ∧ win3_7.index t (0 : Fin 3) = win3_6.index t (0 : Fin 3) ∧ win3_7.index t (1 : Fin 3) = win3_6.index t (1 : Fin 3)
    ∧ win3_7.index t (2 : Fin 3) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 3) ≤ 7 ∧ win3_6.index t (1 : Fin 3) ≤ 9 ∧ win3_6.index t (2 : Fin 3) = 0 :=
  (by decide +kernel : ∀ t : Fin grid3.N, _)

/-- Every block (q0, q1, 0) of the output arrays is some point's. -/
theorem idx_onto : ∀ (q0 : Fin 8) (q1 : Fin 10), ∃ t : Fin cfg3.N,
    win3_6.index t (0 : Fin 3) = q0.val ∧ win3_6.index t (1 : Fin 3) = q1.val :=
  (by decide +kernel : ∀ (q0 : Fin 8) (q1 : Fin 10), ∃ t : Fin grid3.N,
    win3_6.index t (0 : Fin 3) = q0.val ∧ win3_6.index t (1 : Fin 3) = q1.val)

/-- The block step of the input blocks at point `t`, at local index (u, r, d), is the array step at
    (b, 8192 i + r, d), (b, i, 0) the point's output block. -/
theorem block_at (c : Dev nD) (t : Fin cfg3.N) (u : Fin 1) (r : Fin 8192) (d : Fin 20)
    (bb : Fin 8) (pp : Fin 81920) (hbb : bb.val = win3_6.index t (0 : Fin 3)) (hpp : pp.val = win3_6.index t (1 : Fin 3) * 8192 + r.val) :
    blockStep (iblk3 V c 0 t) (iblk3 V c 1 t) (iblk3 V c 2 t) (iblk3 V c 3 t) (iblk3 V c 4 t) (iblk3 V c 5 t) (ix3 u r d)
      = arrStep V c (ix3 bb pp d) := by
  obtain ⟨f00, f01, f02, f10, f11, f12, f70, f71, f72, f20, f21, f30, f31, f40, f41, f50, f51, b0, b1, f62⟩ := idx_facts t
  have hu : u.val = 0 := by omega
  show Euler.stepAt _ _ _ _ _ _ u r d = Euler.stepAt _ _ _ _ _ _ bb pp d
  refine stepAt_of_blocks (V c main_v29_0) (V c main_v37) (V c main_arg2) (V c main_v0) (V c main_arg4) (V c main_v1)
    (iblk3 V c 0 t) (iblk3 V c 1 t) (iblk3 V c 2 t) (iblk3 V c 3 t) (iblk3 V c 4 t) (iblk3 V c 5 t) u r bb pp ?_ ?_ ?_ ?_ ?_ ?_ d
  · intro d'
    show V c main_v29_0 (((cfg3.win 1).blk t).view.emb (ix3 u r d')) = V c main_v29_0 (ix3 bb pp d')
    refine congrArg _ (funext fun a => Fin.ext ?_)
    match a with
    | ⟨0, _⟩ => show win3_1.index t (0 : Fin 3) * 1 + 1 * u.val = bb.val; omega
    | ⟨1, _⟩ => show win3_1.index t (1 : Fin 3) * 8192 + 1 * r.val = pp.val; omega
    | ⟨2, _⟩ => show win3_1.index t (2 : Fin 3) * 20 + 1 * d'.val = d'.val; omega
  · intro f
    show V c main_v37 (((cfg3.win 0).blk t).view.emb (ix3 u r f)) = V c main_v37 (ix3 bb pp f)
    refine congrArg _ (funext fun a => Fin.ext ?_)
    match a with
    | ⟨0, _⟩ => show win3_0.index t (0 : Fin 3) * 1 + 1 * u.val = bb.val; omega
    | ⟨1, _⟩ => show win3_0.index t (1 : Fin 3) * 8192 + 1 * r.val = pp.val; omega
    | ⟨2, _⟩ => show win3_0.index t (2 : Fin 3) * 60 + 1 * f.val = f.val; omega
  · funext j
    show V c main_arg2 (((cfg3.win 2).blk t).view.emb j) = V c main_arg2 j
    refine congrArg _ (funext fun a => Fin.ext ?_)
    match a with
    | ⟨0, _⟩ => show win3_2.index t (0 : Fin 2) * 60 + 1 * (j 0).val = (j 0).val; omega
    | ⟨1, _⟩ => show win3_2.index t (1 : Fin 2) * 128 + 1 * (j 1).val = (j 1).val; omega
  · funext j
    show V c main_v0 (((cfg3.win 3).blk t).view.emb j) = V c main_v0 j
    refine congrArg _ (funext fun a => Fin.ext ?_)
    match a with
    | ⟨0, _⟩ => show win3_3.index t (0 : Fin 2) * 1 + 1 * (j 0).val = (j 0).val; omega
    | ⟨1, _⟩ => show win3_3.index t (1 : Fin 2) * 128 + 1 * (j 1).val = (j 1).val; omega
  · funext j
    show V c main_arg4 (((cfg3.win 4).blk t).view.emb j) = V c main_arg4 j
    refine congrArg _ (funext fun a => Fin.ext ?_)
    match a with
    | ⟨0, _⟩ => show win3_4.index t (0 : Fin 2) * 128 + 1 * (j 0).val = (j 0).val; omega
    | ⟨1, _⟩ => show win3_4.index t (1 : Fin 2) * 16 + 1 * (j 1).val = (j 1).val; omega
  · funext j
    show V c main_v1 (((cfg3.win 5).blk t).view.emb j) = V c main_v1 j
    refine congrArg _ (funext fun a => Fin.ext ?_)
    match a with
    | ⟨0, _⟩ => show win3_5.index t (0 : Fin 2) * 1 + 1 * (j 0).val = (j 0).val; omega
    | ⟨1, _⟩ => show win3_5.index t (1 : Fin 2) * 16 + 1 * (j 1).val = (j 1).val; omega

/-- What point `t` writes back to the first output: block `t` of the step of the arrays. -/
theorem flushed6 (c : Dev nD) (t : Fin cfg3.N) :
    (dat3 V c).flushed 6 t = ((cfg3.win 6).blk t).view.read (Elt Ideal) (arrStep V c) := by
  show (cfg3.win 6).cut (grid3.coords t) ((dat3 V c).after 6 t) = _
  rw [after3_6]
  unfold outsAt3
  dsimp only
  rw [out6_eq]
  obtain ⟨f00, f01, f02, f10, f11, f12, f70, f71, f72, f20, f21, f30, f31, f40, f41, f50, f51, b0, b1, f62⟩ := idx_facts t
  funext y
  obtain ⟨u, r, d, rfl⟩ : ∃ (u : Fin 1) (r : Fin 8192) (d : Fin 20), y = ix3 u r d := ⟨y 0, y 1, y 2, eq_ix3 y⟩
  have hu : u.val = 0 := by omega
  have hemb : ((cfg3.win 6).blk t).view.emb (ix3 u r d)
      = ix3 (⟨win3_6.index t (0 : Fin 3), by omega⟩ : Fin 8) (⟨win3_6.index t (1 : Fin 3) * 8192 + r.val, by omega⟩ : Fin 81920) d :=
    funext fun a => Fin.ext (by
      match a with
      | ⟨0, _⟩ => show win3_6.index t (0 : Fin 3) * 1 + 1 * u.val = win3_6.index t (0 : Fin 3); omega
      | ⟨1, _⟩ => show win3_6.index t (1 : Fin 3) * 8192 + 1 * r.val = win3_6.index t (1 : Fin 3) * 8192 + r.val; omega
      | ⟨2, _⟩ => show win3_6.index t (2 : Fin 3) * 20 + 1 * d.val = d.val; omega)
  show blockStep _ _ _ _ _ _ (ix3 u r d) = arrStep V c (((cfg3.win 6).blk t).view.emb (ix3 u r d))
  rw [hemb]
  exact block_at V c t u r d _ _ rfl rfl

/-- What point `t` writes back to the second output: the same block. -/
theorem flushed7 (c : Dev nD) (t : Fin cfg3.N) :
    (dat3 V c).flushed 7 t = ((cfg3.win 7).blk t).view.read (Elt Ideal) (arrStep V c) := by
  show (cfg3.win 7).cut (grid3.coords t) ((dat3 V c).after 7 t) = _
  rw [after3_7]
  unfold outsAt3
  dsimp only
  rw [out7_eq]
  obtain ⟨f00, f01, f02, f10, f11, f12, f70, f71, f72, f20, f21, f30, f31, f40, f41, f50, f51, b0, b1, f62⟩ := idx_facts t
  funext y
  obtain ⟨u, r, d, rfl⟩ : ∃ (u : Fin 1) (r : Fin 8192) (d : Fin 20), y = ix3 u r d := ⟨y 0, y 1, y 2, eq_ix3 y⟩
  have hu : u.val = 0 := by omega
  have hemb : ((cfg3.win 7).blk t).view.emb (ix3 u r d)
      = ix3 (⟨win3_6.index t (0 : Fin 3), by omega⟩ : Fin 8) (⟨win3_6.index t (1 : Fin 3) * 8192 + r.val, by omega⟩ : Fin 81920) d :=
    funext fun a => Fin.ext (by
      match a with
      | ⟨0, _⟩ => show win3_7.index t (0 : Fin 3) * 1 + 1 * u.val = win3_6.index t (0 : Fin 3); omega
      | ⟨1, _⟩ => show win3_7.index t (1 : Fin 3) * 8192 + 1 * r.val = win3_6.index t (1 : Fin 3) * 8192 + r.val; omega
      | ⟨2, _⟩ => show win3_7.index t (2 : Fin 3) * 20 + 1 * d.val = d.val; omega)
  show blockStep _ _ _ _ _ _ (ix3 u r d) = arrStep V c (((cfg3.win 7).blk t).view.emb (ix3 u r d))
  rw [hemb]
  exact block_at V c t u r d _ _ rfl rfl

/-- Every element of the first output array is in some point's block: (b, p, d) in the block of point (b, p / 8192). -/
theorem cover6 (i : (⟨3, ![8, 81920, 20]⟩ : Shape).Idx) :
    ∃ t : Fin cfg3.N, (cfg3.win 6).flush t = true ∧ i ∈ ((cfg3.win 6).blk t).view.set := by
  have h0 : (i 0).val < 8 := (i 0).isLt
  have h1 : (i 1).val < 81920 := (i 1).isLt
  have h2 : (i 2).val < 20 := (i 2).isLt
  obtain ⟨t, q0, q1⟩ := idx_onto ⟨(i 0).val, h0⟩ ⟨(i 1).val / 8192, by omega⟩
  obtain ⟨f00, f01, f02, f10, f11, f12, f70, f71, f72, f20, f21, f30, f31, f40, f41, f50, f51, b0, b1, f62⟩ := idx_facts t
  refine ⟨t, flush3_6 t, ?_⟩
  show i ∈ ((View.whole main_v38_0).slice (win3_6.rect t)).set
  rw [View.set_slice_whole, Rect.mem_set_unit]
  intro a
  match a with
  | ⟨0, _⟩ => show win3_6.index t (0 : Fin 3) * 1 ≤ (i 0).val ∧ (i 0).val < win3_6.index t (0 : Fin 3) * 1 + 1; dsimp only at q0; omega
  | ⟨1, _⟩ => show win3_6.index t (1 : Fin 3) * 8192 ≤ (i 1).val ∧ (i 1).val < win3_6.index t (1 : Fin 3) * 8192 + 8192; dsimp only at q1; omega
  | ⟨2, _⟩ => show win3_6.index t (2 : Fin 3) * 20 ≤ (i 2).val ∧ (i 2).val < win3_6.index t (2 : Fin 3) * 20 + 20; omega

/-- The same for the second output array. -/
theorem cover7 (i : (⟨3, ![8, 81920, 20]⟩ : Shape).Idx) :
    ∃ t : Fin cfg3.N, (cfg3.win 7).flush t = true ∧ i ∈ ((cfg3.win 7).blk t).view.set := by
  have h0 : (i 0).val < 8 := (i 0).isLt
  have h1 : (i 1).val < 81920 := (i 1).isLt
  have h2 : (i 2).val < 20 := (i 2).isLt
  obtain ⟨t, q0, q1⟩ := idx_onto ⟨(i 0).val, h0⟩ ⟨(i 1).val / 8192, by omega⟩
  obtain ⟨f00, f01, f02, f10, f11, f12, f70, f71, f72, f20, f21, f30, f31, f40, f41, f50, f51, b0, b1, f62⟩ := idx_facts t
  refine ⟨t, flush3_7 t, ?_⟩
  show i ∈ ((View.whole main_v38_1).slice (win3_7.rect t)).set
  rw [View.set_slice_whole, Rect.mem_set_unit]
  intro a
  match a with
  | ⟨0, _⟩ => show win3_7.index t (0 : Fin 3) * 1 ≤ (i 0).val ∧ (i 0).val < win3_7.index t (0 : Fin 3) * 1 + 1; dsimp only at q0; omega
  | ⟨1, _⟩ => show win3_7.index t (1 : Fin 3) * 8192 ≤ (i 1).val ∧ (i 1).val < win3_7.index t (1 : Fin 3) * 8192 + 8192; dsimp only at q1; omega
  | ⟨2, _⟩ => show win3_7.index t (2 : Fin 3) * 20 ≤ (i 2).val ∧ (i 2).val < win3_7.index t (2 : Fin 3) * 20 + 20; omega

/-- The first output array after the region: the step of the arrays the region found. -/
theorem arr6 (c : Dev nD) : (dat3 V c).arrAt 6 cfg3.N = arrStep V c :=
  (dat3 V c).arrAt_eq_of_cover 6 (arrStep V c) (fun t _ => flushed6 V c t) cover6

/-- The second output array after the region: the same values. -/
theorem arr7 (c : Dev nD) : (dat3 V c).arrAt 7 cfg3.N = arrStep V c :=
  (dat3 V c).arrAt_eq_of_cover 7 (arrStep V c) (fun t _ => flushed7 V c t) cover7

end Arrays

end Cert.KernelIdeal.Region3

end
-- ==== Proof.Glue.lean ====
/-
  The idealized kernel program's result: four Euler steps of the launch state.

  The program alternates host stretches and kernel regions. Before region K the host gathers the neighbours' rows
  of the current state's narrow-format copy and flattens them (the stretch's last operation also copies the state
  into the buffer the region's first output is written to, which the region then overwrites entirely). Region K
  leaves, in both of its output arrays, the Euler step of the state it found (the region modules). The neighbour
  table, the weights and the two one-row biases are written by nothing after the first stretch, so every region
  finds them at their launch values. Walking the boundaries from the launch memory: the state after region K is
  the K+1-fold step of the launch state, and the program's result is the fourfold one.
-/
import proofs.«172859_j12378095747571_2_alg».proof.Proof.Region0
import proofs.«172859_j12378095747571_2_alg».proof.Proof.Region1
import proofs.«172859_j12378095747571_2_alg».proof.Proof.Region2
import proofs.«172859_j12378095747571_2_alg».proof.Proof.Region3
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.Tactic Idealize.SL.Sem
open Idealize.ShloMosaic.ValueIdx Idealize.ShloMosaic.StableHlo
open Idealize.ShloMosaic.Pipeline (Dat)

/-- The state's type, in either float format: at the ideal instance both are arrays of extended reals. -/
abbrev State : Type := (⟨3, ![8, 81920, 20]⟩ : Shape).Idx → EReal

/-- The gathered features of a state: the three neighbours' rows of every vertex (a negative index counted from
    the end, then clamped into range), laid end to end. Never opened: the reference gathers in the same way. -/
def gatherZ (Y : State) (nb : (⟨S81920x3, .i32⟩ : BufTy).Contents (Elt Ideal)) : (⟨3, ![8, 81920, 60]⟩ : Shape).Idx → EReal :=
  shapeCast S8x81920x60
    (Host.gather gather_S8x81920x20_S81920x3x1_S8x81920x3x20_03_1_n_n_1_2_8120 (Y : (⟨S8x81920x20, .bf16⟩ : BufTy).Contents (Elt Ideal))
      (broadcastInDim S81920x3x1 ![0, 1] bcast_S81920x3_S81920x3x1_0_1
        (select (cmpi .slt nb (broadcastInDim S81920x3 ![] bcast_S_S81920x3 (constantI S_ 32 0#32)))
          (addi nb (broadcastInDim S81920x3 ![] bcast_S_S81920x3 (constantI S_ 32 81920#32))) nb)))
    shapeCasts_S8x81920x3x20_S8x81920x60

variable (m : (ℓ : Loc nD τ sig) → Buf (Elt Ideal) ℓ) (ρ : Dev nD → PrngReg)

/-- The neighbour table at launch. -/
abbrev NB (c : Dev nD) : (⟨S81920x3, .i32⟩ : BufTy).Contents (Elt Ideal) := m ((c : Thread nD τ).loc main_arg1)
/-- The first layer's weights at launch. -/
abbrev W1a (c : Dev nD) : FVec Ideal S60x128 .f32 := m ((c : Thread nD τ).loc main_arg2)
/-- The first bias as the one-row matrix the host makes of it. -/
abbrev B1r (c : Dev nD) : FVec Ideal S1x128 .f32 := shapeCast S1x128 (m ((c : Thread nD τ).loc main_arg3)) shapeCasts_S128_S1x128
/-- The second layer's weights at launch. -/
abbrev W2a (c : Dev nD) : FVec Ideal S128x16 .f32 := m ((c : Thread nD τ).loc main_arg4)
/-- The second bias as the one-row matrix the host makes of it. -/
abbrev B2r (c : Dev nD) : FVec Ideal S1x16 .f32 := shapeCast S1x16 (m ((c : Thread nD τ).loc main_arg5)) shapeCasts_S16_S1x16

/-- One step of the program: the specification's step of a state and its gathered features, at the launch
    weights and biases. -/
def stepK (c : Dev nD) (Y : State) : State :=
  Euler.step (nb := 8) (np := 81920) Y (gatherZ Y (NB m c)) (W1a m c) (fun h => B1r m c (ix2 (0 : Fin 1) h)) (W2a m c)
    (fun e => B2r m c (ix2 (0 : Fin 1) e))

/-- The launch state and the states after each region. -/
abbrev Y0 (c : Dev nD) : State := m ((c : Thread nD τ).loc main_arg0)
abbrev Y1 (c : Dev nD) : State := stepK m c (Y0 m c)
abbrev Y2 (c : Dev nD) : State := stepK m c (Y1 m c)
abbrev Y3 (c : Dev nD) : State := stepK m c (Y2 m c)
abbrev Y4 (c : Dev nD) : State := stepK m c (Y3 m c)

/-- What a region finds at its entry: the neighbour table, the weights and the biases at their launch values, the
    state `Y` in the state window's array and its gathered features in the features window's array. -/
structure Entry (c : Dev nD) (Y : State) (nb : (⟨S81920x3, .i32⟩ : BufTy).Contents (Elt Ideal)) (w1 : FVec Ideal S60x128 .f32)
    (b1 : FVec Ideal S1x128 .f32) (w2 : FVec Ideal S128x16 .f32) (b2 : FVec Ideal S1x16 .f32) (y : State)
    (z : (⟨3, ![8, 81920, 60]⟩ : Shape).Idx → EReal) : Prop where
  hnb : nb = NB m c
  hw1 : w1 = W1a m c
  hb1 : b1 = B1r m c
  hw2 : w2 = W2a m c
  hb2 : b2 = B2r m c
  hy : y = Y
  hz : z = gatherZ Y (NB m c)

/-- What a region leaves at its exit: the same constants, and the stepped state in both output arrays. -/
structure Exit (c : Dev nD) (Y : State) (nb : (⟨S81920x3, .i32⟩ : BufTy).Contents (Elt Ideal)) (w1 : FVec Ideal S60x128 .f32)
    (b1 : FVec Ideal S1x128 .f32) (w2 : FVec Ideal S128x16 .f32) (b2 : FVec Ideal S1x16 .f32) (o6 o7 : State) : Prop where
  hnb : nb = NB m c
  hw1 : w1 = W1a m c
  hb1 : b1 = B1r m c
  hw2 : w2 = W2a m c
  hb2 : b2 = B2r m c
  h6 : o6 = stepK m c Y
  h7 : o7 = stepK m c Y

/-- A step of arrays that are the entry's: the program's step of the entry's state. -/
theorem step_of_entry (c : Dev nD) (Y : State) (nb) (w1) (b1) (w2) (b2) (y) (z) (h : Entry m c Y nb w1 b1 w2 b2 y z) :
    Euler.step (nb := 8) (np := 81920) y z w1 (fun k => b1 (ix2 (0 : Fin 1) k)) w2 (fun e => b2 (ix2 (0 : Fin 1) e)) = stepK m c Y := by
  obtain ⟨hnb, hw1, hb1, hw2, hb2, hy, hz⟩ := h
  subst hw1; subst hb1; subst hw2; subst hb2; subst hy; subst hz
  rfl

/-! ## Region 0 -/

/-- What region 0 finds. -/
theorem entry0 (c : Dev nD) :
    Entry m c (Y0 m c) (W1 m ρ c (Proc.devRef .tc main_arg1)) (V1 m ρ c main_arg2) (V1 m ρ c main_v0) (V1 m ρ c main_arg4)
      (V1 m ρ c main_v1) (V1 m ρ c main_arg0) (V1 m ρ c main_v10) := by
  refine ⟨?_, ?_, ?_, ?_, ?_, ?_, ?_⟩
  · show StableHlo.after (hostOps0 (F := Ideal)) (W0 m ρ c) (Proc.devRef .tc main_arg1) = _; after_results
  · show StableHlo.after (hostOps0 (F := Ideal)) (W0 m ρ c) (Proc.devRef .tc main_arg2) = _; after_results
  · show StableHlo.after (hostOps0 (F := Ideal)) (W0 m ρ c) (Proc.devRef .tc main_v0) = _; after_results; rfl
  · show StableHlo.after (hostOps0 (F := Ideal)) (W0 m ρ c) (Proc.devRef .tc main_arg4) = _; after_results
  · show StableHlo.after (hostOps0 (F := Ideal)) (W0 m ρ c) (Proc.devRef .tc main_v1) = _; after_results; rfl
  · show StableHlo.after (hostOps0 (F := Ideal)) (W0 m ρ c) (Proc.devRef .tc main_arg0) = _; after_results
  · show StableHlo.after (hostOps0 (F := Ideal)) (W0 m ρ c) (Proc.devRef .tc main_v10) = _; after_results; rfl

/-- What region 0 leaves. -/
theorem exit0 (c : Dev nD) :
    Exit m c (Y0 m c) (W2 m ρ c (Proc.devRef .tc main_arg1)) (W2 m ρ c (Proc.devRef .tc main_arg2))
      (W2 m ρ c (Proc.devRef .tc main_v0)) (W2 m ρ c (Proc.devRef .tc main_arg4)) (W2 m ρ c (Proc.devRef .tc main_v1))
      (W2 m ρ c (Proc.devRef .tc main_v11_0)) (W2 m ρ c (Proc.devRef .tc main_v11_1)) := by
  have he := entry0 m ρ c
  refine ⟨?_, ?_, ?_, ?_, ?_, ?_, ?_⟩
  · exact (W2_of_ne m ρ c main_arg1 (by decide)).trans he.hnb
  · exact ((W2_arr m ρ c 2).trans (((dat0 (V1 m ρ) c).arrAt_in 2 rfl _).trans (A_eq0 (V1 m ρ) c 2))).trans he.hw1
  · exact ((W2_arr m ρ c 3).trans (((dat0 (V1 m ρ) c).arrAt_in 3 rfl _).trans (A_eq0 (V1 m ρ) c 3))).trans he.hb1
  · exact ((W2_arr m ρ c 4).trans (((dat0 (V1 m ρ) c).arrAt_in 4 rfl _).trans (A_eq0 (V1 m ρ) c 4))).trans he.hw2
  · exact ((W2_arr m ρ c 5).trans (((dat0 (V1 m ρ) c).arrAt_in 5 rfl _).trans (A_eq0 (V1 m ρ) c 5))).trans he.hb2
  · exact ((W2_arr m ρ c 6).trans (Region0.arr6 (V1 m ρ) c)).trans (step_of_entry m c _ _ _ _ _ _ _ _ he)
  · exact ((W2_arr m ρ c 7).trans (Region0.arr7 (V1 m ρ) c)).trans (step_of_entry m c _ _ _ _ _ _ _ _ he)

/-! ## Region 1 -/

/-- What region 1 finds. -/
theorem entry1 (c : Dev nD) :
    Entry m c (Y1 m c) (W3 m ρ c (Proc.devRef .tc main_arg1)) (V3 m ρ c main_arg2) (V3 m ρ c main_v0) (V3 m ρ c main_arg4)
      (V3 m ρ c main_v1) (V3 m ρ c main_v11_0) (V3 m ρ c main_v19) := by
  obtain ⟨xnb, xw1, xb1, xw2, xb2, x6, x7⟩ := exit0 m ρ c
  have k0 : W3 m ρ c (Proc.devRef .tc main_arg1) = W2 m ρ c (Proc.devRef .tc main_arg1) := by
    show StableHlo.after (hostOps1 (F := Ideal)) (W2 m ρ c) (Proc.devRef .tc main_arg1) = _; after_results
  have k1 : W3 m ρ c (Proc.devRef .tc main_arg2) = W2 m ρ c (Proc.devRef .tc main_arg2) := by
    show StableHlo.after (hostOps1 (F := Ideal)) (W2 m ρ c) (Proc.devRef .tc main_arg2) = _; after_results
  have k2 : W3 m ρ c (Proc.devRef .tc main_v0) = W2 m ρ c (Proc.devRef .tc main_v0) := by
    show StableHlo.after (hostOps1 (F := Ideal)) (W2 m ρ c) (Proc.devRef .tc main_v0) = _; after_results
  have k3 : W3 m ρ c (Proc.devRef .tc main_arg4) = W2 m ρ c (Proc.devRef .tc main_arg4) := by
    show StableHlo.after (hostOps1 (F := Ideal)) (W2 m ρ c) (Proc.devRef .tc main_arg4) = _; after_results
  have k4 : W3 m ρ c (Proc.devRef .tc main_v1) = W2 m ρ c (Proc.devRef .tc main_v1) := by
    show StableHlo.after (hostOps1 (F := Ideal)) (W2 m ρ c) (Proc.devRef .tc main_v1) = _; after_results
  have k5 : W3 m ρ c (Proc.devRef .tc main_v11_0) = W2 m ρ c (Proc.devRef .tc main_v11_0) := by
    show StableHlo.after (hostOps1 (F := Ideal)) (W2 m ρ c) (Proc.devRef .tc main_v11_0) = _; after_results
  have k6 : (W3 m ρ c (Proc.devRef .tc main_v19) : (⟨3, ![8, 81920, 60]⟩ : Shape).Idx → EReal)
      = gatherZ (W2 m ρ c (Proc.devRef .tc main_v11_1)) (W2 m ρ c (Proc.devRef .tc main_arg1)) := by
    show StableHlo.after (hostOps1 (F := Ideal)) (W2 m ρ c) (Proc.devRef .tc main_v19) = _; after_results; rfl
  exact ⟨k0.trans xnb, k1.trans xw1, k2.trans xb1, k3.trans xw2, k4.trans xb2, k5.trans x6, k6.trans (by rw [x7, xnb])⟩

/-- What region 1 leaves. -/
theorem exit1 (c : Dev nD) :
    Exit m c (Y1 m c) (W4 m ρ c (Proc.devRef .tc main_arg1)) (W4 m ρ c (Proc.devRef .tc main_arg2))
      (W4 m ρ c (Proc.devRef .tc main_v0)) (W4 m ρ c (Proc.devRef .tc main_arg4)) (W4 m ρ c (Proc.devRef .tc main_v1))
      (W4 m ρ c (Proc.devRef .tc main_v20_0)) (W4 m ρ c (Proc.devRef .tc main_v20_1)) := by
  have he := entry1 m ρ c
  refine ⟨?_, ?_, ?_, ?_, ?_, ?_, ?_⟩
  · exact (W4_of_ne m ρ c main_arg1 (by decide)).trans he.hnb
  · exact ((W4_arr m ρ c 2).trans (((dat1 (V3 m ρ) c).arrAt_in 2 rfl _).trans (A_eq1 (V3 m ρ) c 2))).trans he.hw1
  · exact ((W4_arr m ρ c 3).trans (((dat1 (V3 m ρ) c).arrAt_in 3 rfl _).trans (A_eq1 (V3 m ρ) c 3))).trans he.hb1
  · exact ((W4_arr m ρ c 4).trans (((dat1 (V3 m ρ) c).arrAt_in 4 rfl _).trans (A_eq1 (V3 m ρ) c 4))).trans he.hw2
  · exact ((W4_arr m ρ c 5).trans (((dat1 (V3 m ρ) c).arrAt_in 5 rfl _).trans (A_eq1 (V3 m ρ) c 5))).trans he.hb2
  · exact ((W4_arr m ρ c 6).trans (Region1.arr6 (V3 m ρ) c)).trans (step_of_entry m c _ _ _ _ _ _ _ _ he)
  · exact ((W4_arr m ρ c 7).trans (Region1.arr7 (V3 m ρ) c)).trans (step_of_entry m c _ _ _ _ _ _ _ _ he)

/-! ## Region 2 -/

/-- What region 2 finds. -/
theorem entry2 (c : Dev nD) :
    Entry m c (Y2 m c) (W5 m ρ c (Proc.devRef .tc main_arg1)) (V5 m ρ c main_arg2) (V5 m ρ c main_v0) (V5 m ρ c main_arg4)
      (V5 m ρ c main_v1) (V5 m ρ c main_v20_0) (V5 m ρ c main_v28) := by
  obtain ⟨xnb, xw1, xb1, xw2, xb2, x6, x7⟩ := exit1 m ρ c
  have k0 : W5 m ρ c (Proc.devRef .tc main_arg1) = W4 m ρ c (Proc.devRef .tc main_arg1) := by
    show StableHlo.after (hostOps2 (F := Ideal)) (W4 m ρ c) (Proc.devRef .tc main_arg1) = _; after_results
  have k1 : W5 m ρ c (Proc.devRef .tc main_arg2) = W4 m ρ c (Proc.devRef .tc main_arg2) := by
    show StableHlo.after (hostOps2 (F := Ideal)) (W4 m ρ c) (Proc.devRef .tc main_arg2) = _; after_results
  have k2 : W5 m ρ c (Proc.devRef .tc main_v0) = W4 m ρ c (Proc.devRef .tc main_v0) := by
    show StableHlo.after (hostOps2 (F := Ideal)) (W4 m ρ c) (Proc.devRef .tc main_v0) = _; after_results
  have k3 : W5 m ρ c (Proc.devRef .tc main_arg4) = W4 m ρ c (Proc.devRef .tc main_arg4) := by
    show StableHlo.after (hostOps2 (F := Ideal)) (W4 m ρ c) (Proc.devRef .tc main_arg4) = _; after_results
  have k4 : W5 m ρ c (Proc.devRef .tc main_v1) = W4 m ρ c (Proc.devRef .tc main_v1) := by
    show StableHlo.after (hostOps2 (F := Ideal)) (W4 m ρ c) (Proc.devRef .tc main_v1) = _; after_results
  have k5 : W5 m ρ c (Proc.devRef .tc main_v20_0) = W4 m ρ c (Proc.devRef .tc main_v20_0) := by
    show StableHlo.after (hostOps2 (F := Ideal)) (W4 m ρ c) (Proc.devRef .tc main_v20_0) = _; after_results
  have k6 : (W5 m ρ c (Proc.devRef .tc main_v28) : (⟨3, ![8, 81920, 60]⟩ : Shape).Idx → EReal)
      = gatherZ (W4 m ρ c (Proc.devRef .tc main_v20_1)) (W4 m ρ c (Proc.devRef .tc main_arg1)) := by
    show StableHlo.after (hostOps2 (F := Ideal)) (W4 m ρ c) (Proc.devRef .tc main_v28) = _; after_results; rfl
  exact ⟨k0.trans xnb, k1.trans xw1, k2.trans xb1, k3.trans xw2, k4.trans xb2, k5.trans x6, k6.trans (by rw [x7, xnb])⟩

/-- What region 2 leaves. -/
theorem exit2 (c : Dev nD) :
    Exit m c (Y2 m c) (W6 m ρ c (Proc.devRef .tc main_arg1)) (W6 m ρ c (Proc.devRef .tc main_arg2))
      (W6 m ρ c (Proc.devRef .tc main_v0)) (W6 m ρ c (Proc.devRef .tc main_arg4)) (W6 m ρ c (Proc.devRef .tc main_v1))
      (W6 m ρ c (Proc.devRef .tc main_v29_0)) (W6 m ρ c (Proc.devRef .tc main_v29_1)) := by
  have he := entry2 m ρ c
  refine ⟨?_, ?_, ?_, ?_, ?_, ?_, ?_⟩
  · exact (W6_of_ne m ρ c main_arg1 (by decide)).trans he.hnb
  · exact ((W6_arr m ρ c 2).trans (((dat2 (V5 m ρ) c).arrAt_in 2 rfl _).trans (A_eq2 (V5 m ρ) c 2))).trans he.hw1
  · exact ((W6_arr m ρ c 3).trans (((dat2 (V5 m ρ) c).arrAt_in 3 rfl _).trans (A_eq2 (V5 m ρ) c 3))).trans he.hb1
  · exact ((W6_arr m ρ c 4).trans (((dat2 (V5 m ρ) c).arrAt_in 4 rfl _).trans (A_eq2 (V5 m ρ) c 4))).trans he.hw2
  · exact ((W6_arr m ρ c 5).trans (((dat2 (V5 m ρ) c).arrAt_in 5 rfl _).trans (A_eq2 (V5 m ρ) c 5))).trans he.hb2
  · exact ((W6_arr m ρ c 6).trans (Region2.arr6 (V5 m ρ) c)).trans (step_of_entry m c _ _ _ _ _ _ _ _ he)
  · exact ((W6_arr m ρ c 7).trans (Region2.arr7 (V5 m ρ) c)).trans (step_of_entry m c _ _ _ _ _ _ _ _ he)

/-! ## Region 3 -/

/-- What region 3 finds. -/
theorem entry3 (c : Dev nD) :
    Entry m c (Y3 m c) (W7 m ρ c (Proc.devRef .tc main_arg1)) (V7 m ρ c main_arg2) (V7 m ρ c main_v0) (V7 m ρ c main_arg4)
      (V7 m ρ c main_v1) (V7 m ρ c main_v29_0) (V7 m ρ c main_v37) := by
  obtain ⟨xnb, xw1, xb1, xw2, xb2, x6, x7⟩ := exit2 m ρ c
  have k0 : W7 m ρ c (Proc.devRef .tc main_arg1) = W6 m ρ c (Proc.devRef .tc main_arg1) := by
    show StableHlo.after (hostOps3 (F := Ideal)) (W6 m ρ c) (Proc.devRef .tc main_arg1) = _; after_results
  have k1 : W7 m ρ c (Proc.devRef .tc main_arg2) = W6 m ρ c (Proc.devRef .tc main_arg2) := by
    show StableHlo.after (hostOps3 (F := Ideal)) (W6 m ρ c) (Proc.devRef .tc main_arg2) = _; after_results
  have k2 : W7 m ρ c (Proc.devRef .tc main_v0) = W6 m ρ c (Proc.devRef .tc main_v0) := by
    show StableHlo.after (hostOps3 (F := Ideal)) (W6 m ρ c) (Proc.devRef .tc main_v0) = _; after_results
  have k3 : W7 m ρ c (Proc.devRef .tc main_arg4) = W6 m ρ c (Proc.devRef .tc main_arg4) := by
    show StableHlo.after (hostOps3 (F := Ideal)) (W6 m ρ c) (Proc.devRef .tc main_arg4) = _; after_results
  have k4 : W7 m ρ c (Proc.devRef .tc main_v1) = W6 m ρ c (Proc.devRef .tc main_v1) := by
    show StableHlo.after (hostOps3 (F := Ideal)) (W6 m ρ c) (Proc.devRef .tc main_v1) = _; after_results
  have k5 : W7 m ρ c (Proc.devRef .tc main_v29_0) = W6 m ρ c (Proc.devRef .tc main_v29_0) := by
    show StableHlo.after (hostOps3 (F := Ideal)) (W6 m ρ c) (Proc.devRef .tc main_v29_0) = _; after_results
  have k6 : (W7 m ρ c (Proc.devRef .tc main_v37) : (⟨3, ![8, 81920, 60]⟩ : Shape).Idx → EReal)
      = gatherZ (W6 m ρ c (Proc.devRef .tc main_v29_1)) (W6 m ρ c (Proc.devRef .tc main_arg1)) := by
    show StableHlo.after (hostOps3 (F := Ideal)) (W6 m ρ c) (Proc.devRef .tc main_v37) = _; after_results; rfl
  exact ⟨k0.trans xnb, k1.trans xw1, k2.trans xb1, k3.trans xw2, k4.trans xb2, k5.trans x6, k6.trans (by rw [x7, xnb])⟩

/-- What region 3 leaves. -/
theorem exit3 (c : Dev nD) :
    Exit m c (Y3 m c) (W8 m ρ c (Proc.devRef .tc main_arg1)) (W8 m ρ c (Proc.devRef .tc main_arg2))
      (W8 m ρ c (Proc.devRef .tc main_v0)) (W8 m ρ c (Proc.devRef .tc main_arg4)) (W8 m ρ c (Proc.devRef .tc main_v1))
      (W8 m ρ c (Proc.devRef .tc main_v38_0)) (W8 m ρ c (Proc.devRef .tc main_v38_1)) := by
  have he := entry3 m ρ c
  refine ⟨?_, ?_, ?_, ?_, ?_, ?_, ?_⟩
  · exact (W8_of_ne m ρ c main_arg1 (by decide)).trans he.hnb
  · exact ((W8_arr m ρ c 2).trans (((dat3 (V7 m ρ) c).arrAt_in 2 rfl _).trans (A_eq3 (V7 m ρ) c 2))).trans he.hw1
  · exact ((W8_arr m ρ c 3).trans (((dat3 (V7 m ρ) c).arrAt_in 3 rfl _).trans (A_eq3 (V7 m ρ) c 3))).trans he.hb1
  · exact ((W8_arr m ρ c 4).trans (((dat3 (V7 m ρ) c).arrAt_in 4 rfl _).trans (A_eq3 (V7 m ρ) c 4))).trans he.hw2
  · exact ((W8_arr m ρ c 5).trans (((dat3 (V7 m ρ) c).arrAt_in 5 rfl _).trans (A_eq3 (V7 m ρ) c 5))).trans he.hb2
  · exact ((W8_arr m ρ c 6).trans (Region3.arr6 (V7 m ρ) c)).trans (step_of_entry m c _ _ _ _ _ _ _ _ he)
  · exact ((W8_arr m ρ c 7).trans (Region3.arr7 (V7 m ρ) c)).trans (step_of_entry m c _ _ _ _ _ _ _ _ he)

/-! ## The result -/

/-- The program's result buffer ends holding the fourfold step of the launch state. -/
theorem result_eq (c : Dev nD) : W8 m ρ c (Proc.devRef .tc main_v38_0) = Y4 m c := (exit3 m ρ c).h6

end Cert.KernelIdeal.Glue

end
-- ==== Proof.LibScatterFold.lean ====
/-
  A host scatter whose updates land on pairwise distinct elements, read at an index.

  The host's scatter is a left fold over the update positions in row-major order: each update whose landing
  position is inside the operand replaces the element there by the body applied to that element and the update;
  an update landing outside is dropped. When no two updates land on one element the order of the fold is
  immaterial, and an element of the result is read directly:
    * an element on which exactly one update lands is the body applied to the operand's element and that update;
    * an element on which no update lands is the operand's element.
  Both statements are general in the dimension numbers, the body and the element type.
-/
import Idealize.ShloMosaic.PureOps.ShapeOps

noncomputable section

namespace Cert.ScatterFold

open Idealize.ShloMosaic

section Fold

variable {ι α β : Type} [DecidableEq ι] (g : β → Option ι) (v : β → α) (f : α → α → α)

/-- One step of the fold: the update at position `n` applied to the running contents `r`. -/
def step (r : ι → α) (n : β) : ι → α :=
  match g n with
  | some i => fun i' => if i' = i then f (r i) (v n) else r i'
  | none => r

theorem step_of_ne (r : ι → α) (n : β) (i' : ι) (h : g n ≠ some i') : step g v f r n i' = r i' := by
  unfold step
  cases hg : g n with
  | none => rfl
  | some i =>
    have hne : i' ≠ i := fun e => h (by rw [hg, e])
    simp only [if_neg hne]

theorem step_of_eq (r : ι → α) (n : β) (i' : ι) (h : g n = some i') : step g v f r n i' = f (r i') (v n) := by
  unfold step
  rw [h]
  exact if_pos rfl

/-- An element no update of the list lands on is left as it was. -/
theorem foldl_miss : ∀ (L : List β) (r : ι → α) (i' : ι), (∀ n ∈ L, g n ≠ some i') →
    L.foldl (step g v f) r i' = r i'
  | [], _, _, _ => rfl
  | n :: L, r, i', h => by
    rw [List.foldl_cons, foldl_miss L _ i' (fun k hk => h k (List.mem_cons_of_mem _ hk))]
    exact step_of_ne g v f r n i' (h n List.mem_cons_self)

/-- An element exactly one update of a duplicate-free list lands on is the body applied to it and that update. -/
theorem foldl_hit : ∀ (L : List β) (r : ι → α) (i' : ι) (n₀ : β), L.Nodup → n₀ ∈ L → g n₀ = some i' →
    (∀ n ∈ L, g n = some i' → n = n₀) → L.foldl (step g v f) r i' = f (r i') (v n₀)
  | [], _, _, _, _, hm, _, _ => absurd hm List.not_mem_nil
  | n :: L, r, i', n₀, hnd, hm, h₀, hu => by
    rw [List.foldl_cons]
    have hnd' := List.nodup_cons.mp hnd
    by_cases hn : n = n₀
    · subst hn
      rw [foldl_miss g v f L _ i' (fun k hk hgk => hnd'.1 (by rw [← hu k (List.mem_cons_of_mem _ hk) hgk]; exact hk))]
      exact step_of_eq g v f r n i' h₀
    · have hm' : n₀ ∈ L := by
        rcases List.mem_cons.mp hm with e | e
        · exact absurd e.symm hn
        · exact e
      rw [foldl_hit L _ i' n₀ hnd'.2 hm' h₀ (fun k hk => hu k (List.mem_cons_of_mem _ hk))]
      rw [step_of_ne g v f r n i' (fun e => hn (hu n List.mem_cons_self e))]

end Fold

variable {α : Type} {s si u : Shape} {w : Nat}

/-- The host's scatter is the fold of `step` over the update positions. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) (fun n => upd (u.rowMajor.symm n)) f) x := by
  unfold Host.scatter
  congr 1
  funext r n
  unfold step
  dsimp only
  generalize d.resultIdx? (u.rowMajor.symm n) idx = o
  cases o with
  | none => rfl
  | some i =>
    funext i'
    by_cases h : i' = i
    · simp only [if_pos h]
    · simp only [if_neg h]

/-- An element on which exactly one update lands. -/
theorem scatter_apply_hit (d : ScatterDims s si u) (f : α → α → α) (x : s.Idx → α) (idx : IVec si w) (upd : u.Idx → α)
    (i' : s.Idx) (j₀ : u.Idx) (h₀ : d.resultIdx? j₀ idx = some i') (hu : ∀ j, d.resultIdx? j idx = some i' → j = j₀) :
    Host.scatter d f x idx upd i' = f (x i') (upd j₀) := by
  rw [scatter_eq_foldl]
  have e := foldl_hit (fun n => d.resultIdx? (u.rowMajor.symm n) idx) (fun n => upd (u.rowMajor.symm n)) f
    (List.finRange u.numel) x i' (u.rowMajor j₀) (List.nodup_finRange _) (List.mem_finRange _)
    (by simp only [Equiv.symm_apply_apply]; exact h₀)
    (fun n _ hn => by rw [← hu _ hn, Equiv.apply_symm_apply])
  simp only [Equiv.symm_apply_apply] at e
  exact e

/-- An element on which no update lands. -/
theorem scatter_apply_miss (d : ScatterDims s si u) (f : α → α → α) (x : s.Idx → α) (idx : IVec si w) (upd : u.Idx → α)
    (i' : s.Idx) (h : ∀ j, d.resultIdx? j idx ≠ some i') :
    Host.scatter d f x idx upd i' = x i' := by
  rw [scatter_eq_foldl]
  exact foldl_miss _ _ f (List.finRange u.numel) x i' (fun n _ => h _)

end Cert.ScatterFold

end
-- ==== Proof.RefStep.lean ====
/-
  The reference's program is four Euler steps, and each step is the specification's `step`.

  One step of the reference is: gather the three neighbours' rows and flatten them (the stage `val_main_v7`, kept
  as one opaque function of the state and the neighbour table), apply the interaction network
  (two contractions, a bias each, a tanh between them), scale by the step size, and add the result into the 16
  latent components with a scatter whose single index vector is the constant 0: the update [8, 81920, 16] lands
  at (b, p, d) ↦ (b, p, d), distinct updates on distinct elements, so a latent element is its old value plus its
  update and an ancillary element (16 ≤ d) is untouched.
-/
import proofs.«172859_j12378095747571_2_alg».proof.Proof.Gen.ReferenceIdeal.Read
import proofs.«172859_j12378095747571_2_alg».proof.Proof.LibScatterFold
import proofs.«172859_j12378095747571_2_alg».proof.Proof.Spec

noncomputable section

namespace Cert.ReferenceIdeal.RefStep

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-! ## Where the scatter's updates land -/

/-- The scatter's one index vector is the constant 0. -/
theorem start_zero (j : S8x81920x16.Idx) (a : Fin S8x81920x20.rank) :
    scatter_S8x81920x20_S1_S8x81920x16_012_n_2_0.start j (val_main_v19 (F := Ideal)) a = 0 := by
  unfold ScatterDims.start
  split
  · rw [val_main_v19_apply, val_main_c_1_apply]; rfl
  · rfl

/-- The update's three axes are the operand's three axes, in order. -/
theorem window0 (b : Fin 8) (p : Fin 81920) (d : Fin 16) :
    scatter_S8x81920x20_S1_S8x81920x16_012_n_2_0.window (ix3 b p d) 0 = b.val := by
  unfold ScatterDims.window; rw [dif_pos (by decide)]; rfl
theorem window1 (b : Fin 8) (p : Fin 81920) (d : Fin 16) :
    scatter_S8x81920x20_S1_S8x81920x16_012_n_2_0.window (ix3 b p d) 1 = p.val := by
  unfold ScatterDims.window; rw [dif_pos (by decide)]; rfl
theorem window2 (b : Fin 8) (p : Fin 81920) (d : Fin 16) :
    scatter_S8x81920x20_S1_S8x81920x16_012_n_2_0.window (ix3 b p d) 2 = d.val := by
  unfold ScatterDims.window; rw [dif_pos (by decide)]; rfl

/-- Start plus window coordinate, axis by axis: the update's own coordinates. -/
theorem landing (b : Fin 8) (p : Fin 81920) (d : Fin 16) (a : Fin S8x81920x20.rank) :
    scatter_S8x81920x20_S1_S8x81920x16_012_n_2_0.start (ix3 b p d) (val_main_v19 (F := Ideal)) a
      + scatter_S8x81920x20_S1_S8x81920x16_012_n_2_0.window (ix3 b p d) a
    = ((ix3 b p (⟨d.val, by omega⟩ : Fin 20) a).val : Int) := by
  rw [start_zero]
  match a with
  | ⟨0, h⟩ =>
    exact (by rw [window0 b p d]; exact Int.zero_add _ :
      (0 : Int) + (scatter_S8x81920x20_S1_S8x81920x16_012_n_2_0.window (ix3 b p d) 0 : Int) = (b.val : Int))
  | ⟨1, h⟩ =>
    exact (by rw [window1 b p d]; exact Int.zero_add _ :
      (0 : Int) + (scatter_S8x81920x20_S1_S8x81920x16_012_n_2_0.window (ix3 b p d) 1 : Int) = (p.val : Int))
  | ⟨2, h⟩ =>
    exact (by rw [window2 b p d]; exact Int.zero_add _ :
      (0 : Int) + (scatter_S8x81920x20_S1_S8x81920x16_012_n_2_0.window (ix3 b p d) 2 : Int) = (d.val : Int))

/-- Update (b, p, d) lands at element (b, p, d). -/
theorem lands (b : Fin 8) (p : Fin 81920) (d : Fin 16) :
    scatter_S8x81920x20_S1_S8x81920x16_012_n_2_0.resultIdx? (ix3 b p d) (val_main_v19 (F := Ideal))
      = some (ix3 b p (⟨d.val, by omega⟩ : Fin 20)) := by
  unfold ScatterDims.resultIdx?
  have hb : ∀ a, 0 ≤ scatter_S8x81920x20_S1_S8x81920x16_012_n_2_0.start (ix3 b p d) (val_main_v19 (F := Ideal)) a
        + scatter_S8x81920x20_S1_S8x81920x16_012_n_2_0.window (ix3 b p d) a
      ∧ scatter_S8x81920x20_S1_S8x81920x16_012_n_2_0.start (ix3 b p d) (val_main_v19 (F := Ideal)) a
        + scatter_S8x81920x20_S1_S8x81920x16_012_n_2_0.window (ix3 b p d) a < S8x81920x20.size a := by
    intro a
    rw [landing]
    have hlt := (ix3 b p (⟨d.val, by omega⟩ : Fin 20) a).isLt
    constructor
    · exact Int.natCast_nonneg _
    · exact_mod_cast hlt
  rw [dif_pos hb]
  refine congrArg some (funext fun a => Fin.ext ?_)
  have e := landing b p d a
  show (scatter_S8x81920x20_S1_S8x81920x16_012_n_2_0.start (ix3 b p d) (val_main_v19 (F := Ideal)) a
      + scatter_S8x81920x20_S1_S8x81920x16_012_n_2_0.window (ix3 b p d) a).toNat = _
  rw [e]
  exact Int.toNat_natCast _

/-! ## The interaction network, read at an element -/

section Network

variable (x0 : (⟨S8x81920x20, .f32⟩ : BufTy).Contents (Elt Ideal)) (x1 : (⟨S81920x3, .i32⟩ : BufTy).Contents (Elt Ideal))
  (x2 : (⟨S60x128, .f32⟩ : BufTy).Contents (Elt Ideal)) (x3 : (⟨S128, .f32⟩ : BufTy).Contents (Elt Ideal))
  (x4 : (⟨S128x16, .f32⟩ : BufTy).Contents (Elt Ideal)) (x5 : (⟨S16, .f32⟩ : BufTy).Contents (Elt Ideal))

/-- The hidden layer at (b, p, h): `tanh ((∑ f, z (b, p, f) * W1 (f, h)) + b1 h)` of the gathered features `z`. -/
theorem hidden_at (b : Fin 8) (p : Fin 81920) (h : Fin 128) :
    val_main_v12 (F := Ideal) x0 x1 x2 x3 (ix3 b p h)
      = Ideal.tanh ((∑ f : Fin 60, val_main_v7 (F := Ideal) x0 x1 (ix3 b p f) * x2 (ix2 f h)) + x3 (ix1 h)) := by
  rw [val_main_v12_apply, val_main_v11_apply, val_main_v8_apply, val_main_v10_apply, val_main_v9_apply]
  have hl : ∀ f : Fin 60, lidx_main_v8 (ix3 b p h) f = ix3 b p f := fun f =>
    funext fun a => by match a with | ⟨0, _⟩ => rfl | ⟨1, _⟩ => rfl | ⟨2, _⟩ => rfl
  have hr : ∀ f : Fin 60, ridx_main_v8 (ix3 b p h) f = ix2 f h := fun f =>
    funext fun a => by match a with | ⟨0, _⟩ => rfl | ⟨1, _⟩ => rfl
  have hb : idx_main_v9 (idx_main_v10 (ix3 b p h)) = ix1 h :=
    funext fun a => by match a with | ⟨0, _⟩ => rfl
  simp only [hl, hr, hb]
  rfl

/-- The network's output at (b, p, e), before the scaling. -/
theorem phi_at (b : Fin 8) (p : Fin 81920) (e : Fin 16) :
    val_main_v16 (F := Ideal) x0 x1 x2 x3 x4 x5 (ix3 b p e)
      = Euler.phi (fun f => val_main_v7 (F := Ideal) x0 x1 (ix3 b p f)) x2 (fun h => x3 (ix1 h)) x4 (fun e' => x5 (ix1 e')) e := by
  rw [val_main_v16_apply, val_main_v13_apply, val_main_v15_apply, val_main_v14_apply]
  have hl : ∀ k : Fin 128, lidx_main_v13 (ix3 b p e) k = ix3 b p k := fun k =>
    funext fun a => by match a with | ⟨0, _⟩ => rfl | ⟨1, _⟩ => rfl | ⟨2, _⟩ => rfl
  have hr : ∀ k : Fin 128, ridx_main_v13 (ix3 b p e) k = ix2 k e := fun k =>
    funext fun a => by match a with | ⟨0, _⟩ => rfl | ⟨1, _⟩ => rfl
  have hb : idx_main_v14 (idx_main_v15 (ix3 b p e)) = ix1 e :=
    funext fun a => by match a with | ⟨0, _⟩ => rfl
  simp only [hl, hr, hb, hidden_at]
  rfl

/-- The scaled update at (b, p, e): `dt * phi`. -/
theorem update_at (b : Fin 8) (p : Fin 81920) (e : Fin 16) :
    val_main_v18 (F := Ideal) x0 x1 x2 x3 x4 x5 (ix3 b p e)
      = Euler.dt * Euler.phi (fun f => val_main_v7 (F := Ideal) x0 x1 (ix3 b p f)) x2 (fun h => x3 (ix1 h)) x4 (fun e' => x5 (ix1 e')) e := by
  rw [val_main_v18_apply, val_main_v17_apply, val_main_cst_apply, phi_at]
  rfl

/-! ## One step of the reference is the specification's step -/

/-- The reference's first step, at an element. -/
theorem step_at (b : Fin 8) (p : Fin 81920) (d : Fin 20) :
    val_main_v20 (F := Ideal) x0 x1 x2 x3 x4 x5 (ix3 b p d)
      = Euler.stepAt x0 (val_main_v7 (F := Ideal) x0 x1) x2 (fun h => x3 (ix1 h)) x4 (fun e' => x5 (ix1 e')) b p d := by
  unfold val_main_v20
  by_cases hd : d.val < 16
  · rw [Euler.stepAt_latent _ _ _ _ _ _ b p d hd]
    rw [Cert.ScatterFold.scatter_apply_hit _ _ _ _ _ (ix3 b p d) (ix3 b p (⟨d.val, hd⟩ : Fin 16)) (lands b p ⟨d.val, hd⟩)
      (fun j hj => by
        obtain ⟨b', p', d', rfl⟩ : ∃ (b' : Fin 8) (p' : Fin 81920) (d' : Fin 16), j = ix3 b' p' d' := ⟨j 0, j 1, j 2, eq_ix3 j⟩
        rw [lands] at hj
        have e := Option.some.inj hj
        have e0 : b' = b := congrFun e 0
        have e1 : p' = p := congrFun e 1
        have e2 : (⟨d'.val, by omega⟩ : Fin 20) = d := congrFun e 2
        subst e0; subst e1
        have hv : d'.val = d.val := congrArg Fin.val e2
        have : d' = ⟨d.val, hd⟩ := Fin.ext hv
        rw [this])]
    rw [update_at]
    rfl
  · rw [Euler.stepAt_ancillary _ _ _ _ _ _ b p d hd]
    refine Cert.ScatterFold.scatter_apply_miss _ _ _ _ _ (ix3 b p d) (fun j hj => ?_)
    obtain ⟨b', p', d', rfl⟩ : ∃ (b' : Fin 8) (p' : Fin 81920) (d' : Fin 16), j = ix3 b' p' d' := ⟨j 0, j 1, j 2, eq_ix3 j⟩
    rw [lands] at hj
    have e2 : (⟨d'.val, by omega⟩ : Fin 20) = d := congrFun (Option.some.inj hj) 2
    have hv : d'.val = d.val := congrArg Fin.val e2
    omega

/-- The reference's first step is the specification's step of the state and its gathered features. -/
theorem step_eq :
    val_main_v20 (F := Ideal) x0 x1 x2 x3 x4 x5
      = Euler.step x0 (val_main_v7 (F := Ideal) x0 x1) x2 (fun h => x3 (ix1 h)) x4 (fun e' => x5 (ix1 e')) := by
  funext j
  obtain ⟨b, p, d, rfl⟩ : ∃ (b : Fin 8) (p : Fin 81920) (d : Fin 20), j = ix3 b p d := ⟨j 0, j 1, j 2, eq_ix3 j⟩
  rw [step_at, Euler.step_ix3]

/-! ## The later steps are the first step applied again -/

/-- The second step is the first step's function of the state after one step. -/
theorem step2_eq : val_main_v41 (F := Ideal) x0 x1 x2 x3 x4 x5
    = val_main_v20 (F := Ideal) (val_main_v20 (F := Ideal) x0 x1 x2 x3 x4 x5) x1 x2 x3 x4 x5 := rfl

/-- The third step likewise. -/
theorem step3_eq : val_main_v62 (F := Ideal) x0 x1 x2 x3 x4 x5
    = val_main_v20 (F := Ideal) (val_main_v41 (F := Ideal) x0 x1 x2 x3 x4 x5) x1 x2 x3 x4 x5 := rfl

/-- The fourth step likewise: the program's result. -/
theorem step4_eq : val_main_v83 (F := Ideal) x0 x1 x2 x3 x4 x5
    = val_main_v20 (F := Ideal) (val_main_v62 (F := Ideal) x0 x1 x2 x3 x4 x5) x1 x2 x3 x4 x5 := rfl

end Network

end Cert.ReferenceIdeal.RefStep

end
-- ==== Proof.Bridge.lean ====
/-
  The kernel program's result is the reference's result, as functions of the launch arrays.

  One step of the kernel program (the specification's step of a state and its gathered features, at the launch
  weights and the biases as one-row matrices) is one step of the reference (its scatter-add stage): the two gather
  the neighbours' rows by the same operations (equal term for term), the reference's step is the specification's step
  (its bias vectors read directly), and a vector cast to a one-row matrix reads the vector. Four steps of
  one are four steps of the other.
-/
import proofs.«172859_j12378095747571_2_alg».proof.Proof.Glue
import proofs.«172859_j12378095747571_2_alg».proof.Proof.RefStep
import Idealize.ShloMosaic.Lib.ValueLayout

set_option maxRecDepth 16384

noncomputable section

namespace Cert.Bridge

open Idealize.ShloMosaic Idealize.ShloMosaic.TcCoe Idealize.SL.Sem Idealize.ShloMosaic.ValueIdx

/-- The kernel program's gathered features are the reference's stage of the same name: the same operations. -/
theorem gatherZ_eq (Y : Cert.KernelIdeal.Glue.State) (nb : (⟨Cert.KernelIdeal.S81920x3, .i32⟩ : BufTy).Contents (Elt Ideal)) :
    Cert.KernelIdeal.Glue.gatherZ Y nb = Cert.ReferenceIdeal.Read.val_main_v7 (F := Ideal) Y nb := rfl

variable (m : (ℓ : Loc Cert.KernelIdeal.nD Cert.KernelIdeal.τ Cert.KernelIdeal.sig) → Buf (Elt Ideal) ℓ)
  (ρ : Dev Cert.KernelIdeal.nD → PrngReg)

/-- One step of the kernel program is one step of the reference, of the same launch arrays. -/
theorem stepK_eq (c : Dev Cert.KernelIdeal.nD) (Y : Cert.KernelIdeal.Glue.State) :
    Cert.KernelIdeal.Glue.stepK m c Y
      = Cert.ReferenceIdeal.Read.val_main_v20 (F := Ideal) Y
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  rw [Cert.ReferenceIdeal.RefStep.step_eq]
  unfold Cert.KernelIdeal.Glue.stepK
  rw [gatherZ_eq]
  have e1 : (fun h : Fin 128 => Cert.KernelIdeal.Glue.B1r m c (ix2 (0 : Fin 1) h))
      = fun h => m ((c.tc : Thread Cert.KernelIdeal.nD Cert.KernelIdeal.τ).loc Cert.KernelIdeal.main_arg3) (ix1 h) :=
    funext fun h => shapeCast_a_1a_apply _ _ 0 h
  have e2 : (fun e : Fin 16 => Cert.KernelIdeal.Glue.B2r m c (ix2 (0 : Fin 1) e))
      = fun e => m ((c.tc : Thread Cert.KernelIdeal.nD Cert.KernelIdeal.τ).loc Cert.KernelIdeal.main_arg5) (ix1 e) :=
    funext fun e => shapeCast_a_1a_apply _ _ 0 e
  rw [e1, e2]

/-- The kernel program's result buffer ends holding the reference's result term of the launch arrays. -/
theorem kernel_result (c : Dev Cert.KernelIdeal.nD) :
    Cert.KernelIdeal.Gen.W8 m ρ c (Proc.devRef .tc Cert.KernelIdeal.main_v38_0)
      = Cert.ReferenceIdeal.Read.val_main_v83 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  rw [Cert.KernelIdeal.Glue.result_eq]
  show Cert.KernelIdeal.Glue.stepK m c (Cert.KernelIdeal.Glue.stepK m c (Cert.KernelIdeal.Glue.stepK m c
    (Cert.KernelIdeal.Glue.stepK m c (Cert.KernelIdeal.Glue.Y0 m c)))) = _
  rw [Cert.ReferenceIdeal.RefStep.step4_eq, Cert.ReferenceIdeal.RefStep.step3_eq, Cert.ReferenceIdeal.RefStep.step2_eq,
    stepK_eq, stepK_eq, stepK_eq, stepK_eq]

end Cert.Bridge

end
-- ==== Proof.lean ====
/-
  The certificate of the neural solver's kernel against its reference.

  Both programs advance a state [8, 81920, 20] by four forward-Euler steps. One step gathers, for every vertex, its
  three neighbours' rows of the state, applies a two-layer tanh network to the 60 gathered numbers, and adds one
  tenth (the single-precision word) of the network's 16 outputs to the vertex's 16 latent components, leaving its
  4 ancillary components alone. The reference does the update as a scatter-add into the latent slice; the kernel
  program gathers on the host from a narrow-format copy of the state and runs the network and the update in a
  kernel over an 8 × 10 grid of blocks of 8192 vertices, four launches in a row, each writing the new state and its
  narrow copy. Over the extended reals the narrow copy is the state itself, a matrix product into a zero accumulator
  is the plain sum the host's contraction is, and the scatter-add on the latent slice is the addition the kernel does:
  each launch leaves the reference's step of the state it found (the region modules and the host-side walk), so the
  two results are one function of the launch arrays (the bridge). No algebraic law beyond reading both programs index
  by index is needed, and finiteness of the inputs is not used.

  The three frames are the generated ones (the reference's is its generated run with the result dropped); the ideal
  pass rewrote nothing, so its conjunct is trivial.
-/
import proofs.«172859_j12378095747571_2_alg».proof.Defs
import proofs.«172859_j12378095747571_2_alg».proof.Proof.Gen.Kernel
import proofs.«172859_j12378095747571_2_alg».proof.Proof.Gen.Kernel.Skeleton
import proofs.«172859_j12378095747571_2_alg».proof.Proof.Gen.Kernel.Launch
import proofs.«172859_j12378095747571_2_alg».proof.Proof.Gen.Kernel.Points
import proofs.«172859_j12378095747571_2_alg».proof.Proof.Gen.Kernel.Frame
import proofs.«172859_j12378095747571_2_alg».proof.Proof.Gen.KernelIdeal
import proofs.«172859_j12378095747571_2_alg».proof.Proof.Gen.KernelIdeal.Skeleton
import proofs.«172859_j12378095747571_2_alg».proof.Proof.Gen.KernelIdeal.Launch
import proofs.«172859_j12378095747571_2_alg».proof.Proof.Gen.KernelIdeal.Points
import proofs.«172859_j12378095747571_2_alg».proof.Proof.Gen.KernelIdeal.Frame
import proofs.«172859_j12378095747571_2_alg».proof.Proof.Gen.ReferenceIdeal
import proofs.«172859_j12378095747571_2_alg».proof.Proof.Gen.ReferenceIdeal.Run
import proofs.«172859_j12378095747571_2_alg».proof.Proof.Gen.ReferenceIdeal.Read
import proofs.«172859_j12378095747571_2_alg».proof.Proof.Gen.Pre_finite_inputs
import proofs.«172859_j12378095747571_2_alg».proof.Proof.KRun
import proofs.«172859_j12378095747571_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The idealized reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs run and end with the same result: the
    reference's result term of the launch arrays. -/
theorem algebraic : Cert.algebraic_KernelIdeal_ReferenceIdeal := by
  intro m ρ m' ρ' _ hagree
  refine ⟨fun c => Cert.ReferenceIdeal.Read.val_main_v83 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨((h c).1).trans (Cert.Bridge.kernel_result m ρ c), (h c).2⟩) (Cert.KernelIdeal.KRun.run m ρ)
  · refine (θ_run Cert.ReferenceIdeal.defs _ _).mono (fun r h c => ⟨?_, (h c).2⟩)
      (Cert.ReferenceIdeal.Value.run (F := Ideal) m' ρ')
    obtain ⟨a0, a1, a2, a3, a4, a5⟩ := hagree c
    rw [(h c).1, Cert.ReferenceIdeal.Read.val_main_v83_eq, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
